-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128 : Shape := ⟨2, ![1, 128]⟩
abbrev S500000x128 : Shape := ⟨2, ![500000, 128]⟩
abbrev S128x64 : Shape := ⟨2, ![128, 64]⟩
abbrev S64x1 : Shape := ⟨2, ![64, 1]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  main_v23

def fn {F : FTy → Type} [FloatOps F] (main_arg0 : FVec F S1x128 .f32) (main_arg1 : FVec F S500000x128 .f32) (main_arg2 : FVec F S128x64 .f32) (main_arg3 : FVec F S64x1 .f32) (main_arg4 : FVec F S64x1 .f32) : IVec S_ 1 :=
  let main_v0 : FVec F S1x128 .f32 := Host.absf main_arg0
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S1x128 : Shape := ⟨2, ![1, 128]⟩
abbrev S500000x128 : Shape := ⟨2, ![500000, 128]⟩
abbrev S128x64 : Shape := ⟨2, ![128, 64]⟩
abbrev S64x1 : Shape := ⟨2, ![64, 1]⟩
abbrev S1x64 : Shape := ⟨2, ![1, 64]⟩
abbrev S1x1 : Shape := ⟨2, ![1, 1]⟩
abbrev S128x1 : Shape := ⟨2, ![128, 1]⟩
abbrev S128x65 : Shape := ⟨2, ![128, 65]⟩
abbrev S2x1x1 : Shape := ⟨3, ![2, 1, 1]⟩
abbrev S2x1x64 : Shape := ⟨3, ![2, 1, 64]⟩
abbrev S10000x128 : Shape := ⟨2, ![10000, 128]⟩
abbrev S1x1x1 : Shape := ⟨3, ![1, 1, 1]⟩
abbrev S1x1x64 : Shape := ⟨3, ![1, 1, 64]⟩
abbrev S10000x65 : Shape := ⟨2, ![10000, 65]⟩
abbrev S10000x64 : Shape := ⟨2, ![10000, 64]⟩
abbrev S10000x1 : Shape := ⟨2, ![10000, 1]⟩
abbrev S1 : Shape := ⟨1, ![1]⟩
abbrev S64 : Shape := ⟨1, ![64]⟩
abbrev S_ : Shape := ⟨0, ![]⟩

abbrev nBuf : Space → Nat
  | .hbm => 46
  | .vmem => 13
  | .smem => 0
  | _ => 0

abbrev bufTy : (tb : Table) → Fin (tcTables nBuf tb) → BufTy
  | .hbm, ⟨0, _⟩ => ⟨S1x128, .f32⟩
  | .hbm, ⟨1, _⟩ => ⟨S500000x128, .f32⟩
  | .hbm, ⟨2, _⟩ => ⟨S128x64, .f32⟩
  | .hbm, ⟨3, _⟩ => ⟨S64x1, .f32⟩
  | .hbm, ⟨4, _⟩ => ⟨S64x1, .f32⟩
  | .hbm, ⟨5, _⟩ => ⟨S1x64, .f32⟩
  | .hbm, ⟨6, _⟩ => ⟨S1x1, .f32⟩
  | .hbm, ⟨7, _⟩ => ⟨S128x1, .f32⟩
  | .hbm, ⟨8, _⟩ => ⟨S128x65, .f32⟩
  | .hbm, ⟨9, _⟩ => ⟨S2x1x1, .f32⟩
  | .hbm, ⟨10, _⟩ => ⟨S2x1x1, .f32⟩
  | .hbm, ⟨11, _⟩ => ⟨S2x1x64, .f32⟩
  | .hbm, ⟨12, _⟩ => ⟨S1x1x1, .f32⟩
  | .hbm, ⟨13, _⟩ => ⟨S1x1, .f32⟩
  | .hbm, ⟨14, _⟩ => ⟨S1x1x1, .f32⟩
  | .hbm, ⟨15, _⟩ => ⟨S1x1, .f32⟩
  | .hbm, ⟨16, _⟩ => ⟨S1x1x1, .f32⟩
  | .hbm, ⟨17, _⟩ => ⟨S1x1, .f32⟩
  | .hbm, ⟨18, _⟩ => ⟨S1x1x1, .f32⟩
  | .hbm, ⟨19, _⟩ => ⟨S1x1, .f32⟩
  | .hbm, ⟨20, _⟩ => ⟨S1x1x64, .f32⟩
  | .hbm, ⟨21, _⟩ => ⟨S1x64, .f32⟩
  | .hbm, ⟨22, _⟩ => ⟨S1x1x64, .f32⟩
  | .hbm, ⟨23, _⟩ => ⟨S1x64, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S1x1, .f32⟩
  | .hbm, ⟨31, _⟩ => ⟨S1x1, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S_, .f32⟩
  | .hbm, ⟨40, _⟩ => ⟨S1x64, .f32⟩
  | .hbm, ⟨41, _⟩ => ⟨S1x64, .f32⟩
  | .hbm, ⟨42, _⟩ => ⟨S_, .f32⟩
  | .hbm, ⟨43, _⟩ => ⟨S1x64, .f32⟩
  | .hbm, ⟨44, _⟩ => ⟨S1x64, .f32⟩
  | .hbm, ⟨45, _⟩ => ⟨S1x64, .f32⟩
  | .local _ .vmem, ⟨0, _⟩ => ⟨S10000x128, .f32⟩
  | .local _ .vmem, ⟨1, _⟩ => ⟨S10000x128, .f32⟩
  | .local _ .vmem, ⟨2, _⟩ => ⟨S128x65, .f32⟩
  | .local _ .vmem, ⟨3, _⟩ => ⟨S1x1, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x64, .f32⟩
  | .local _ .vmem, ⟨9, _⟩ => ⟨S1x1x64, .f32⟩
  | .local _ .vmem, ⟨10, _⟩ => ⟨S1x1, .f32⟩
  | .local _ .vmem, ⟨11, _⟩ => ⟨S1x1, .f32⟩
  | .local _ .vmem, ⟨12, _⟩ => ⟨S1x64, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst : Ref sig .tc := ⟨.hbm, 39, rfl⟩
abbrev main_v32 : Ref sig .tc := ⟨.hbm, 40, rfl⟩
abbrev main_v33 : Ref sig .tc := ⟨.hbm, 41, rfl⟩
abbrev main_cst_0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x65 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  concatenates_S128x64_S128x1_S128x65_d1 : Shape.Concatenates [S128x64, S128x1] S128x65 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x65_S128x65_0_0 : ∀ a, (![0, 0] : Fin 2 → Nat) a + S128x65.size a ≤ S128x65.size a
  h_S128x65 : 0 < S128x65.numel
  shapeCasts_S128x65_S128x65 : S128x65.ShapeCasts S128x65
  slices_S10000x65_o0_0_S10000x64 : S10000x65.Slices ![0, 0] S10000x64
  slices_S10000x65_o0_64_S10000x1 : S10000x65.Slices ![0, 64] S10000x1
  broadcasts_S1x1_S10000x1 : S1x1.Broadcasts S10000x1
  reduces_S10000x1_S1 : S10000x1.Reduces [0] S1
  shapeCasts_S1_S1x1 : S1.ShapeCasts S1x1
  broadcasts_S10000x1_S10000x64 : S10000x1.Broadcasts S10000x64
  broadcasts_S1x1_S1x64 : S1x1.Broadcasts S1x64
  reduces_S10000x64_S64 : S10000x64.Reduces [0] S64
  shapeCasts_S64_S1x64 : S64.ShapeCasts S1x64
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  slices_S2x1x1_S1x1x1_0_0_0 : S2x1x1.Slices ![0, 0, 0] S1x1x1
  shapeCasts_S1x1x1_S1x1 : S1x1x1.ShapeCasts S1x1
  slices_S2x1x1_S1x1x1_1_0_0 : S2x1x1.Slices ![1, 0, 0] S1x1x1
  slices_S2x1x64_S1x1x64_0_0_0 : S2x1x64.Slices ![0, 0, 0] S1x1x64
  shapeCasts_S1x1x64_S1x64 : S1x1x64.ShapeCasts S1x64
  slices_S2x1x64_S1x1x64_1_0_0 : S2x1x64.Slices ![1, 0, 0] S1x1x64
  bcast_S1x1_S1x64_0_1 : S1x1.BroadcastsInDim S1x64 (![0, 1] : Fin 2 → Fin S1x64.rank)
  bcast_S_S1x64 : S_.BroadcastsInDim S1x64 (![] : Fin 0 → Fin S1x64.rank)
  dot_S1x128_S128x64_S1x64_1_0_0_1_n_n_wf : DotDims.WF S1x128 S128x64 S1x64 [1] [0] [0] [1] [] []
  dot_S1x64_S64x1_S1x1_1_0_0_1_n_n_wf : DotDims.WF S1x64 S64x1 S1x1 [1] [0] [0] [1] [] []
  dot_S128x64_S64x1_S128x1_1_0_0_1_n_n_wf : DotDims.WF S128x64 S64x1 S128x1 [1] [0] [0] [1] [] []
  dot_S10000x128_S128x65_S10000x65_1_0_0_1_n_n_wf : DotDims.WF S10000x128 S128x65 S10000x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x65.size a ≤ S128x65.size a
  hwx0_1 : ∀ i : grid0.Coords, EltTy.bits .f32 = 32 ∨ (Rect.block (s := S128x65) S128x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S2x1x64.size a
  hwx0_5 : ∀ i : grid0.Coords, EltTy.bits .f32 = 32 ∨ (Rect.block (s := S2x1x64) S1x1x64.size (cc0_transform_5 i) (hinb0_5 i)).WholeWords (EltTy.packing .f32)

variable [Facts₀]

def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf
def dot_S10000x128_S128x65_S10000x65_1_0_0_1_n_n : DotDims S10000x128 S128x65 S10000x65 where
  lhsContracting := [1]
  rhsContracting := [0]
  lhsNonContracting := [0]
  rhsNonContracting := [1]
  lhsBatch := []
  rhsBatch := []
  wf := dot_S10000x128_S128x65_S10000x65_1_0_0_1_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x65.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x128 : Shape := ⟨2, ![1, 128]⟩
abbrev S500000x128 : Shape := ⟨2, ![500000, 128]⟩
abbrev S128x64 : Shape := ⟨2, ![128, 64]⟩
abbrev S64x1 : Shape := ⟨2, ![64, 1]⟩
abbrev S1x64 : Shape := ⟨2, ![1, 64]⟩
abbrev S500000x64 : Shape := ⟨2, ![500000, 64]⟩
abbrev S1x1 : Shape := ⟨2, ![1, 1]⟩
abbrev S500000x1 : Shape := ⟨2, ![500000, 1]⟩
abbrev S1x500000 : Shape := ⟨2, ![1, 500000]⟩
abbrev S_ : Shape := ⟨0, ![]⟩
abbrev S1 : Shape := ⟨1, ![1]⟩

abbrev nBuf : Space → Nat
  | .hbm => 34
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S500000x128, .f32⟩
  | .hbm, ⟨2, _⟩ => ⟨S128x64, .f32⟩
  | .hbm, ⟨3, _⟩ => ⟨S64x1, .f32⟩
  | .hbm, ⟨4, _⟩ => ⟨S64x1, .f32⟩
  | .hbm, ⟨5, _⟩ => ⟨S1x64, .f32⟩
  | .hbm, ⟨6, _⟩ => ⟨S500000x64, .f32⟩
  | .hbm, ⟨7, _⟩ => ⟨S1x1, .f32⟩
  | .hbm, ⟨8, _⟩ => ⟨S500000x1, .f32⟩
  | .hbm, ⟨9, _⟩ => ⟨S500000x1, .f32⟩
  | .hbm, ⟨10, _⟩ => ⟨S500000x1, .f32⟩
  | .hbm, ⟨11, _⟩ => ⟨S1x500000, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S1x1, .f32⟩
  | .hbm, ⟨18, _⟩ => ⟨S1x500000, .f32⟩
  | .hbm, ⟨19, _⟩ => ⟨S1x500000, .f32⟩
  | .hbm, ⟨20, _⟩ => ⟨S1x500000, .f32⟩
  | .hbm, ⟨21, _⟩ => ⟨S_, .f32⟩
  | .hbm, ⟨22, _⟩ => ⟨S1, .f32⟩
  | .hbm, ⟨23, _⟩ => ⟨S1x1, .f32⟩
  | .hbm, ⟨24, _⟩ => ⟨S1x500000, .f32⟩
  | .hbm, ⟨25, _⟩ => ⟨S1x500000, .f32⟩
  | .hbm, ⟨26, _⟩ => ⟨S1x64, .f32⟩
  | .hbm, ⟨27, _⟩ => ⟨S_, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S1x1_S500000x1_0_1 : S1x1.BroadcastsInDim S500000x1 (![0, 1] : Fin 2 → Fin S500000x1.rank)
  transposes_S500000x1_S1x500000_1_0 : S500000x1.Transposes [1, 0] S1x500000
  reducesTo_S1x500000_S1_d1 : S1x500000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x500000_0_1 : S1x1.BroadcastsInDim S1x500000 (![0, 1] : Fin 2 → Fin S1x500000.rank)
  bcast_S_S1x64 : S_.BroadcastsInDim S1x64 (![] : Fin 0 → Fin S1x64.rank)
  dot_S1x128_S128x64_S1x64_1_0_0_1_n_n_wf : DotDims.WF S1x128 S128x64 S1x64 [1] [0] [0] [1] [] []
  dot_S500000x128_S128x64_S500000x64_1_0_0_1_n_n_wf : DotDims.WF S500000x128 S128x64 S500000x64 [1] [0] [0] [1] [] []
  dot_S1x64_S64x1_S1x1_1_0_0_1_n_n_wf : DotDims.WF S1x64 S64x1 S1x1 [1] [0] [0] [1] [] []
  dot_S500000x64_S64x1_S500000x1_1_0_0_1_n_n_wf : DotDims.WF S500000x64 S64x1 S500000x1 [1] [0] [0] [1] [] []
  dot_S1x500000_S500000x64_S1x64_1_0_0_1_n_n_wf : DotDims.WF S1x500000 S500000x64 S1x64 [1] [0] [0] [1] [] []

variable [Facts₀]

def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf
def dot_S1x500000_S500000x64_S1x64_1_0_0_1_n_n : DotDims S1x500000 S500000x64 S1x64 where
  lhsContracting := [1]
  rhsContracting := [0]
  lhsNonContracting := [0]
  rhsNonContracting := [1]
  lhsBatch := []
  rhsBatch := []
  wf := dot_S1x500000_S500000x64_S1x64_1_0_0_1_n_n_wf

class Facts : Prop extends Facts₀ where

variable [Facts]
-- ==== Proof.Finite.lean ====
/-
  What the precondition says of the five argument arrays: every entry is a real number.

  The precondition is the conjunction of five tests `all (|x| < +∞)`.  On the extended reals `|x| = max x (-x)`, and
  `max x (-x) < ⊤` rules out both infinities.
-/
import proofs.«125645_j56796647522361_2_alg».proof.Pre_finite_inputs
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- The f32 word `0x7F800000` denotes `+∞`. -/
theorem ofBits_pos_inf_f32 : Ideal.ofBits .f32 0x7F800000#32 = ⊤ := by
  simp [Ideal.ofBits, Ideal.ieee]

/-- An extended real whose absolute value compares below `+∞` is a real. -/
theorem real_of_lt_top (a : EReal) (h : Ideal.cmp .olt (max a (-a)) ⊤ = 1#1) : ∃ r : ℝ, a = (r : EReal) := by
  have h2 : max a (-a) < ⊤ := by
    by_contra hn
    simp [Ideal.cmp, hn] at h
  have ht : a ≠ ⊤ := (lt_of_le_of_lt (le_max_left _ _) h2).ne
  have hb : a ≠ ⊥ := by
    rintro rfl
    rw [EReal.neg_bot] at h2
    exact absurd (lt_of_le_of_lt (le_max_right _ _) h2) (lt_irrefl _)
  exact ⟨a.toReal, (EReal.coe_toReal ht hb).symm⟩

/-- One of the five tests, read at an entry. -/
theorem real_of_test {s : Shape} (x : FVec Ideal s .f32) (dims : Fin S_.rank → Fin s.rank)
    (hb : S_.BroadcastsInDim s dims) (init : IVec S_ 1) {axes : List (Fin s.rank)} (hr : s.ReducesTo axes S_)
    (hu : 0 < S_.numel)
    (h : Host.reduce IntOp.andi
        (cmpf .olt (Host.absf x) (broadcastInDim s dims hb (constant (F := Ideal) S_ .f32 0x7F800000#32))) init hr hu ix0 = 1#1)
    (i : s.Idx) : ∃ r : ℝ, x i = (r : EReal) := by
  have h1 := Host.reduce_andi_all _ init hr hu ix0 h i
  refine real_of_lt_top (x i) ?_
  have e : broadcastInDim s dims hb (constant (F := Ideal) S_ .f32 0x7F800000#32) i = ⊤ := by
    rw [broadcastInDim_apply dims hb _ i ix0 (fun a => a.elim0)]
    exact ofBits_pos_inf_f32
  rw [← e]
  exact h1

/-- The precondition makes every entry of every argument a real. -/
theorem reals_of_pre [Cert.Pre_finite_inputs.Facts] (x0 : FVec Ideal S1x128 .f32) (x1 : FVec Ideal S500000x128 .f32)
    (x2 : FVec Ideal S128x64 .f32) (x3 x4 : FVec Ideal S64x1 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ix0
  dsimp only [Cert.Pre_finite_inputs.fn, Cert.Pre_finite_inputs.fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨real_of_test x0 _ _ _ _ _ h0', real_of_test x1 _ _ _ _ _ h1, real_of_test x2 _ _ _ _ _ h2,
    real_of_test x3 _ _ _ _ _ h3, real_of_test x4 _ _ _ _ _ h4⟩

end Cert.Finite

end
-- ==== Proof.Spec.lean ====
/-
  The mathematics shared by the two programs, on the reals.

  A row `r` of the neighbour matrix has a score `s r` and a feature row `y r`.  The softmax-weighted mean of the
  feature rows is  (∑ r, exp (s r - M) · y r) / (∑ r, exp (s r - M)),  whatever real `M` is subtracted: the
  factor `exp (M' - M)` cancels between numerator and denominator.  A streaming evaluation keeps, for the rows seen
  so far, a shift `m`, the sum `∑ exp (s r - m)` and the weighted sums `∑ exp (s r - m) · y r`; taking in another
  stretch of rows under a new shift `m'` multiplies what is kept by `exp (m - m')` and adds the stretch's own terms.
  Two such states over adjacent stretches merge the same way.  The extended reals enter only at the very first
  stretch, where the shift kept is `-∞`: `exp (-∞ - m') = 0` wipes the (zero) sums.
-/
import Idealize.ShloMosaic.PureOps.Ideal.Laws

noncomputable section

namespace Cert.GatSpec

open Idealize.ShloMosaic
open scoped BigOperators

/-- A finite sum of reals, each read as an extended real, is the real sum read as an extended real. -/
theorem coe_sum {ι : Type} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- The running maximum from `-∞` over finitely many reals, at least one of them, is a real. -/
theorem fold_max_real {n : ℕ} (hn : 0 < n) (f : Fin n → ℝ) :
    ∃ t : ℝ, (Finset.univ : Finset (Fin n)).fold max (⊥ : EReal) (fun k => ((f k : ℝ) : EReal)) = (t : EReal) := by
  have h1 : (Finset.univ : Finset (Fin n)).fold max (⊥ : EReal) (fun k => ((f k : ℝ) : EReal)) ≠ ⊤ :=
    ((Finset.fold_max_lt (⊤ : EReal)).mpr ⟨bot_lt_top, fun x _ => EReal.coe_lt_top _⟩).ne
  have h2 : (Finset.univ : Finset (Fin n)).fold max (⊥ : EReal) (fun k => ((f k : ℝ) : EReal)) ≠ ⊥ :=
    (lt_of_lt_of_le (EReal.bot_lt_coe (f ⟨0, hn⟩))
      ((Finset.le_fold_max _).mpr (Or.inr ⟨⟨0, hn⟩, Finset.mem_univ _, le_rfl⟩))).ne'
  exact ⟨_, (EReal.coe_toReal h1 h2).symm⟩

/-- The exponential of a difference of reals. -/
theorem exp_sub_coe (a b : ℝ) : Ideal.exp ((a : EReal) - (b : EReal)) = ((Real.exp (a - b) : ℝ) : EReal) := by
  rw [← EReal.coe_sub]; rfl

/-- From `-∞` the rescaling factor is zero. -/
theorem exp_bot_sub_coe (b : ℝ) : Ideal.exp ((⊥ : EReal) - (b : EReal)) = 0 := by
  rw [sub_eq_add_neg, EReal.bot_add]; rfl

/-- The sum kept, one stretch further: all reals. -/
theorem keep_sum {n : ℕ} (s : Fin n → ℝ) (m m' l : ℝ) :
    Ideal.exp ((m : EReal) - (m' : EReal)) * (l : EReal) + ∑ k : Fin n, Ideal.exp (((s k : ℝ) : EReal) - (m' : EReal))
      = ((Real.exp (m - m') * l + ∑ k : Fin n, Real.exp (s k - m') : ℝ) : EReal) := by
  simp only [exp_sub_coe]
  rw [coe_sum, ← EReal.coe_mul, ← EReal.coe_add]

/-- The weighted sum kept, one stretch further. -/
theorem keep_wsum {n : ℕ} (s y : Fin n → ℝ) (m m' a : ℝ) :
    Ideal.exp ((m : EReal) - (m' : EReal)) * (a : EReal)
        + ∑ k : Fin n, Ideal.exp (((s k : ℝ) : EReal) - (m' : EReal)) * ((y k : ℝ) : EReal)
      = ((Real.exp (m - m') * a + ∑ k : Fin n, Real.exp (s k - m') * y k : ℝ) : EReal) := by
  simp only [exp_sub_coe, ← EReal.coe_mul]
  rw [coe_sum, ← EReal.coe_add]

/-- The first stretch: nothing is kept. -/
theorem first_sum {n : ℕ} (s : Fin n → ℝ) (m' : ℝ) :
    Ideal.exp ((⊥ : EReal) - (m' : EReal)) * (0 : EReal) + ∑ k : Fin n, Ideal.exp (((s k : ℝ) : EReal) - (m' : EReal))
      = ((∑ k : Fin n, Real.exp (s k - m') : ℝ) : EReal) := by
  simp only [exp_sub_coe, exp_bot_sub_coe]
  rw [coe_sum, zero_mul, zero_add]

theorem first_wsum {n : ℕ} (s y : Fin n → ℝ) (m' : ℝ) :
    Ideal.exp ((⊥ : EReal) - (m' : EReal)) * (0 : EReal)
        + ∑ k : Fin n, Ideal.exp (((s k : ℝ) : EReal) - (m' : EReal)) * ((y k : ℝ) : EReal)
      = ((∑ k : Fin n, Real.exp (s k - m') * y k : ℝ) : EReal) := by
  simp only [exp_sub_coe, exp_bot_sub_coe, ← EReal.coe_mul]
  rw [coe_sum, zero_mul, zero_add]

/-! ## Stretches of rows -/

/-- `∑ exp (s q - m) · w q` over the rows `a ≤ q < b`. -/
def wsum (s w : ℕ → ℝ) (m : ℝ) (a b : ℕ) : ℝ := ∑ q ∈ Finset.Ico a b, Real.exp (s q - m) * w q

/-- Re-shifting a stretch: `exp (m - m') · ∑ exp (s - m) w = ∑ exp (s - m') w`. -/
theorem wsum_shift (s w : ℕ → ℝ) (m m' : ℝ) (a b : ℕ) :
    Real.exp (m - m') * wsum s w m a b = wsum s w m' a b := by
  unfold wsum
  rw [Finset.mul_sum]
  refine Finset.sum_congr rfl fun q _ => ?_
  rw [← mul_assoc, ← Real.exp_add]
  congr 2; ring

/-- Appending the stretch `b ≤ q < b + n`, given by its own rows. -/
theorem wsum_append (s w : ℕ → ℝ) (m m' : ℝ) (a b n : ℕ) (hab : a ≤ b) (st wt : Fin n → ℝ)
    (hst : ∀ k : Fin n, st k = s (b + k.val)) (hwt : ∀ k : Fin n, wt k = w (b + k.val)) :
    Real.exp (m - m') * wsum s w m a b + ∑ k : Fin n, Real.exp (st k - m') * wt k = wsum s w m' a (b + n) := by
  rw [wsum_shift]
  unfold wsum
  rw [← Finset.sum_Ico_consecutive _ hab (Nat.le_add_right b n)]
  congr 1
  rw [Finset.sum_Ico_eq_sum_range, Nat.add_sub_cancel_left, ← Fin.sum_univ_eq_sum_range]
  refine Finset.sum_congr rfl fun k _ => ?_
  rw [hst, hwt]

/-- The first stretch by its own rows. -/
theorem wsum_first (s w : ℕ → ℝ) (m' : ℝ) (b n : ℕ) (st wt : Fin n → ℝ)
    (hst : ∀ k : Fin n, st k = s (b + k.val)) (hwt : ∀ k : Fin n, wt k = w (b + k.val)) :
    ∑ k : Fin n, Real.exp (st k - m') * wt k = wsum s w m' b (b + n) := by
  unfold wsum
  rw [Finset.sum_Ico_eq_sum_range, Nat.add_sub_cancel_left, ← Fin.sum_univ_eq_sum_range]
  refine Finset.sum_congr rfl fun k _ => ?_
  rw [hst, hwt]

/-- Two adjacent stretches under a common shift. -/
theorem wsum_merge (s w : ℕ → ℝ) (m0 m1 M : ℝ) (a b c : ℕ) (hab : a ≤ b) (hbc : b ≤ c) :
    Real.exp (m0 - M) * wsum s w m0 a b + Real.exp (m1 - M) * wsum s w m1 b c = wsum s w M a c := by
  rw [wsum_shift, wsum_shift]
  exact Finset.sum_Ico_consecutive _ hab hbc

/-- The weight sum is positive over a nonempty stretch. -/
theorem wsum_one_pos (s : ℕ → ℝ) (m : ℝ) (a b : ℕ) (hab : a < b) : 0 < wsum s (fun _ => 1) m a b := by
  unfold wsum
  exact Finset.sum_pos (fun q _ => by positivity) ⟨a, Finset.mem_Ico.mpr ⟨le_rfl, hab⟩⟩

/-- The weighted mean does not depend on the shift: with any other shift `M'` it is the sum of the rows weighted by
    their normalised exponentials. -/
theorem mean_shift (s w : ℕ → ℝ) (M M' : ℝ) (a b : ℕ) (hab : a < b) :
    wsum s w M a b / wsum s (fun _ => 1) M a b
      = ∑ q ∈ Finset.Ico a b, Real.exp (s q - M') / wsum s (fun _ => 1) M' a b * w q := by
  have hpos := wsum_one_pos s M' a b hab
  rw [← wsum_shift s w M' M, ← wsum_shift s (fun _ => 1) M' M,
    mul_div_mul_left _ _ (Real.exp_pos _).ne']
  unfold wsum
  rw [Finset.sum_div]
  refine Finset.sum_congr rfl fun q _ => ?_
  rw [div_mul_eq_mul_div]

end Cert.GatSpec

end
-- ==== Proof.Model.lean ====
/-
  The attention layer on real data, as both programs compute it.

  `x` is the node's feature row, `X` the neighbours' rows (indexed by a natural number; only rows below 500000 are
  ever read), `K` the weight matrix, `as`, `an` the two attention vectors.
    xt j      = ∑ f, x f · K f j                    the node's projected features
    aself     = ∑ j, xt j · as j                    the node's own score
    feat q j  = ∑ f, X q f · K f j                  neighbour q's projected features
    score q   = aself + ∑ j, feat q j · an j        neighbour q's score
  The kernel folds `an` into the weights first — `wn f = ∑ j, K f j · an j`, one more column of the matrix — so its
  score is `aself + ∑ f, X q f · wn f`: the same number, the two sums exchanged.
-/
import proofs.«125645_j56796647522361_2_alg».proof.Proof.Spec

noncomputable section

namespace Cert.GatModel

open Idealize.ShloMosaic Cert.GatSpec
open scoped BigOperators

variable (x : Fin 128 → ℝ) (X : ℕ → Fin 128 → ℝ) (K : Fin 128 → Fin 64 → ℝ) (as an : Fin 64 → ℝ)

def xt (j : Fin 64) : ℝ := ∑ f : Fin 128, x f * K f j
def aself : ℝ := ∑ j : Fin 64, xt x K j * as j
def feat (q : ℕ) (j : Fin 64) : ℝ := ∑ f : Fin 128, X q f * K f j
def wn (f : Fin 128) : ℝ := ∑ j : Fin 64, K f j * an j
def score (q : ℕ) : ℝ := aself x K as + ∑ j : Fin 64, feat X K q j * an j

/-- The kernel's score is the reference's. -/
theorem score_folded (q : ℕ) : aself x K as + ∑ f : Fin 128, X q f * wn K an f = score x X K as an q := by
  unfold score feat wn
  congr 1
  simp only [Finset.mul_sum, Finset.sum_mul]
  rw [Finset.sum_comm]
  refine Finset.sum_congr rfl fun j _ => Finset.sum_congr rfl fun f _ => ?_
  ring

/-- A product of two real rows, summed, read on the extended reals. -/
theorem dot_coe {n : ℕ} (a b : Fin n → ℝ) :
    ∑ f : Fin n, ((a f : ℝ) : EReal) * ((b f : ℝ) : EReal) = ((∑ f : Fin n, a f * b f : ℝ) : EReal) := by
  simp only [← EReal.coe_mul]
  exact coe_sum _ _

/-- The quotient of two reals, the divisor not zero, on the extended reals. -/
theorem div_coe_coe (a l : ℝ) (hl : l ≠ 0) : Ideal.div (a : EReal) (l : EReal) = ((a / l : ℝ) : EReal) := by
  rw [Ideal.div_coe hl, ← EReal.coe_mul]
  congr 1
  field_simp

/-- The weighted mean over all rows under any shift is the sum of the rows weighted by their normalised
    exponentials under any other shift — the softmax of the scores applied to a column of features. -/
theorem mean_eq_softmax (s w : ℕ → ℝ) (M M' : ℝ) (n : ℕ) (hn : 0 < n) :
    wsum s w M 0 n / wsum s (fun _ => 1) M 0 n
      = ∑ r : Fin n, Real.exp (s r.val - M') / (0 + ∑ r' : Fin n, Real.exp (s r'.val - M')) * w r.val := by
  rw [mean_shift s w M M' 0 n hn]
  have e : wsum s (fun _ => 1) M' 0 n = 0 + ∑ r' : Fin n, Real.exp (s r'.val - M') := by
    unfold wsum
    rw [zero_add, ← Finset.range_eq_Ico, Finset.sum_range]
    exact Finset.sum_congr rfl fun r _ => mul_one _
  rw [e, ← Finset.range_eq_Ico, Finset.sum_range]

end Cert.GatModel

end
-- ==== Proof.Inputs.lean ====
/-
  The five argument arrays as real data.

  Under the precondition every entry of every argument is a real number; here the arrays are read as real-valued
  functions (`toReal` of each entry), the neighbour rows indexed by a natural number so that stretches of rows can be
  written as intervals (rows from 500000 on read as zero; none is ever used).
-/
import Idealize.ShloMosaic.Lib.ValueIdx
import Idealize.ShloMosaic.PureOps.Ideal.Laws

noncomputable section

namespace Cert.GatInputs

open Idealize.ShloMosaic Idealize.ShloMosaic.ValueIdx

/-- The node's feature row. -/
def xR (A0 : FVec Ideal ⟨2, ![1, 128]⟩ .f32) (f : Fin 128) : ℝ := (A0 (ix2 (0 : Fin 1) f)).toReal
/-- The neighbours' rows. -/
def XR (A1 : FVec Ideal ⟨2, ![500000, 128]⟩ .f32) (q : ℕ) (f : Fin 128) : ℝ :=
  if h : q < 500000 then (A1 (ix2 ⟨q, h⟩ f)).toReal else 0
/-- The weight matrix. -/
def KR (A2 : FVec Ideal ⟨2, ![128, 64]⟩ .f32) (f : Fin 128) (j : Fin 64) : ℝ := (A2 (ix2 f j)).toReal
/-- An attention vector. -/
def aR (A : FVec Ideal ⟨2, ![64, 1]⟩ .f32) (j : Fin 64) : ℝ := (A (ix2 j (0 : Fin 1))).toReal

theorem coe_toReal_of_real {a : EReal} (h : ∃ r : ℝ, a = (r : EReal)) : a = ((a.toReal : ℝ) : EReal) := by
  obtain ⟨r, rfl⟩ := h
  rw [EReal.toReal_coe]

theorem xR_eq {A0 : FVec Ideal ⟨2, ![1, 128]⟩ .f32} (h : ∀ i, ∃ r : ℝ, A0 i = (r : EReal)) (u : Fin 1) (f : Fin 128) :
    A0 (ix2 u f) = ((xR A0 f : ℝ) : EReal) := by
  obtain rfl : u = 0 := Subsingleton.elim _ _
  exact coe_toReal_of_real (h _)

theorem XR_eq {A1 : FVec Ideal ⟨2, ![500000, 128]⟩ .f32} (h : ∀ i, ∃ r : ℝ, A1 i = (r : EReal)) (r : Fin 500000)
    (q : ℕ) (hq : q = r.val) (f : Fin 128) : A1 (ix2 r f) = ((XR A1 q f : ℝ) : EReal) := by
  subst hq
  unfold XR
  rw [dif_pos r.isLt]
  exact coe_toReal_of_real (h _)

theorem KR_eq {A2 : FVec Ideal ⟨2, ![128, 64]⟩ .f32} (h : ∀ i, ∃ r : ℝ, A2 i = (r : EReal)) (f : Fin 128) (j : Fin 64) :
    A2 (ix2 f j) = ((KR A2 f j : ℝ) : EReal) := coe_toReal_of_real (h _)

theorem aR_eq {A : FVec Ideal ⟨2, ![64, 1]⟩ .f32} (h : ∀ i, ∃ r : ℝ, A i = (r : EReal)) (j : Fin 64) (u : Fin 1) :
    A (ix2 j u) = ((aR A j : ℝ) : EReal) := by
  obtain rfl : u = 0 := Subsingleton.elim _ _
  exact coe_toReal_of_real (h _)

end Cert.GatInputs

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibColReduce.lean ====
/-
  Columns of a matrix on the extended reals: a reduction over the ROWS of an `[a, b]` matrix, read at column `q`.

  • The sum over axis 0 is the `Fin a`-indexed sum of the column's entries.
  • The maximum over axis 0 is the fold of `max` over the column's entries from the accumulator's value.
  • A `[1, 1]` value broadcast down a column `[a, 1]`, a column `[a, 1]` broadcast across `[a, b]`, and a `[1, 1]`
    value broadcast along a row `[1, b]`, each read at an entry.
  • The f32 word of `-∞` denotes `⊥`.
-/
import Idealize.ShloMosaic.Lib.Pipeline.Value
import Idealize.ShloMosaic.Lib.ValueIdx
import Idealize.ShloMosaic.PureOps.Ideal.Laws

namespace Cert.ColReduce

open Idealize.ShloMosaic Idealize.ShloMosaic.ValueIdx
open scoped BigOperators

/-- The sum over the rows, at a column. -/
theorem multiReduction_add_cols {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => ?_
  exact congrArg src (funext fun c => Fin.ext (by match c with | ⟨0, _⟩ => rfl | ⟨1, _⟩ => rfl))

/-- The maximum over the rows, at a column: the fold of `max` from the accumulator's value. -/
theorem multiReduction_max_cols {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) (fun k => src (ix2 k q)) := by
  refine (Ideal.multiReduction_maximumf_single src acc h hφ hacc (ix1 q)).trans ?_
  refine congrArg (Finset.fold max _ · _) (funext fun k => ?_)
  exact congrArg src (funext fun c => Fin.ext (by match c with | ⟨0, _⟩ => rfl | ⟨1, _⟩ => rfl))

variable {α : Type}

/-- A `[1, 1]` value broadcast down a column. -/
theorem broadcastTo_11_a1 {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- A `[1, 1]` value broadcast along a row. -/
theorem broadcastTo_11_1b {b : ℕ} (v : (⟨2, ![1, 1]⟩ : Shape).Idx → α) (h : (⟨2, ![1, 1]⟩ : Shape).Broadcasts ⟨2, ![1, b]⟩)
    (u : Fin 1) (q : Fin b) : broadcastTo ⟨2, ![1, b]⟩ v h (ix2 u q) = v (ix2 (0 : Fin 1) (0 : Fin 1)) := by
  refine broadcastTo_apply v h (ix2 u q) (ix2 (0 : Fin 1) (0 : Fin 1)) fun ax => ?_
  match ax with
  | ⟨0, _⟩ => rfl
  | ⟨1, _⟩ => rfl

/-- A column broadcast across the columns of a matrix. -/
theorem broadcastTo_a1_ab {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A one-entry vector as a `[1, 1]` matrix. -/
theorem shapeCast_1_11 (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show 0 = u.val * 1 + v.val
    omega)

/-- The f32 word `0xFF800000` denotes `-∞`. -/
theorem ofBits_neg_inf_f32 : Ideal.ofBits .f32 0xFF800000#32 = ⊥ := by
  simp [Ideal.ofBits, Ideal.ieee]

end Cert.ColReduce
-- ==== Proof.RefValue.lean ====
/-
  The reference on real data: its result at column `j` is
      0.75 · ∑ r, (exp (score r - M) / (0 + ∑ r', exp (score r' - M))) · feat r j  +  0.25 · xt j
  for a real `M` (the largest score, though only its being real is used): every stage of the straight-line program is
  read at an entry, and each entry is a real number because the arguments are.
-/
import proofs.«125645_j56796647522361_2_alg».proof.Proof.Gen.ReferenceIdeal.Read
import proofs.«125645_j56796647522361_2_alg».proof.Proof.Model
import proofs.«125645_j56796647522361_2_alg».proof.Proof.Inputs
import proofs.«125645_j56796647522361_2_alg».proof.Proof.LibRowOps
import proofs.«125645_j56796647522361_2_alg».proof.Proof.LibColReduce

noncomputable section

namespace Cert.ReferenceIdeal.RefValue

open Cert.ReferenceIdeal Cert.ReferenceIdeal.Gen Cert.ReferenceIdeal.Read Cert.GatModel Cert.GatSpec Cert.GatInputs
open Idealize.ShloMosaic Idealize.ShloMosaic.ValueIdx
open scoped BigOperators

/-! ## The operand indices of each stage, by coordinates -/

theorem e_l0 (u : Fin 1) (j : Fin 64) (k : Fin 128) : lidx_main_v0 (ix2 u j) k = ix2 u k := funext fun a => Fin.ext (by match a with | ⟨0, _⟩ => rfl | ⟨1, _⟩ => rfl)
theorem e_r0 (u : Fin 1) (j : Fin 64) (k : Fin 128) : ridx_main_v0 (ix2 u j) k = ix2 k j := funext fun a => Fin.ext (by match a with | ⟨0, _⟩ => rfl | ⟨1, _⟩ => rfl)
theorem e_l1 (r : Fin 500000) (j : Fin 64) (k : Fin 128) : lidx_main_v1 (ix2 r j) k = ix2 r k := funext fun a => Fin.ext (by match a with | ⟨0, _⟩ => rfl | ⟨1, _⟩ => rfl)
theorem e_r1 (r : Fin 500000) (j : Fin 64) (k : Fin 128) : ridx_main_v1 (ix2 r j) k = ix2 k j := funext fun a => Fin.ext (by match a with | ⟨0, _⟩ => rfl | ⟨1, _⟩ => rfl)
theorem e_l2 (u v : Fin 1) (k : Fin 64) : lidx_main_v2 (ix2 u v) k = ix2 u k := funext fun a => Fin.ext (by match a with | ⟨0, _⟩ => rfl | ⟨1, _⟩ => rfl)
theorem e_r2 (u v : Fin 1) (k : Fin 64) : ridx_main_v2 (ix2 u v) k = ix2 k v := funext fun a => Fin.ext (by match a with | ⟨0, _⟩ => rfl | ⟨1, _⟩ => rfl)
theorem e_l3 (r : Fin 500000) (v : Fin 1) (k : Fin 64) : lidx_main_v3 (ix2 r v) k = ix2 r k := funext fun a => Fin.ext (by match a with | ⟨0, _⟩ => rfl | ⟨1, _⟩ => rfl)
theorem e_r3 (r : Fin 500000) (v : Fin 1) (k : Fin 64) : ridx_main_v3 (ix2 r v) k = ix2 k v := funext fun a => Fin.ext (by match a with | ⟨0, _⟩ => rfl | ⟨1, _⟩ => rfl)
theorem e_4 (r : Fin 500000) (v : Fin 1) : idx_main_v4 (ix2 r v) = ix2 (0 : Fin 1) (0 : Fin 1) := funext fun a => Fin.ext (by match a with | ⟨0, _⟩ => rfl | ⟨1, _⟩ => rfl)
theorem e_6 (u : Fin 1) (r : Fin 500000) : idx_main_v6 (ix2 u r) = ix2 r u := funext fun a => Fin.ext (by match a with | ⟨0, _⟩ => rfl | ⟨1, _⟩ => rfl)
theorem e_10 (u v : Fin 1) : idx_main_v10 (ix2 u v) = ix1 (0 : Fin 1) := funext fun a => Fin.ext (by match a with | ⟨0, _⟩ => rfl)
theorem e_11 (u : Fin 1) (r : Fin 500000) : idx_main_v11 (ix2 u r) = ix2 (0 : Fin 1) (0 : Fin 1) := funext fun a => Fin.ext (by match a with | ⟨0, _⟩ => rfl | ⟨1, _⟩ => rfl)
theorem e_14 (u : Fin 1) (k : Fin 500000) : idx_main_v14 (ix1 u) k = ix2 u k := funext fun a => Fin.ext (by match a with | ⟨0, _⟩ => rfl | ⟨1, _⟩ => rfl)
theorem e_15 (u v : Fin 1) : idx_main_v15 (ix2 u v) = ix1 (0 : Fin 1) := funext fun a => Fin.ext (by match a with | ⟨0, _⟩ => rfl)
theorem e_16 (u : Fin 1) (r : Fin 500000) : idx_main_v16 (ix2 u r) = ix2 (0 : Fin 1) (0 : Fin 1) := funext fun a => Fin.ext (by match a with | ⟨0, _⟩ => rfl | ⟨1, _⟩ => rfl)
theorem e_l18 (u : Fin 1) (j : Fin 64) (k : Fin 500000) : lidx_main_v18 (ix2 u j) k = ix2 u k := funext fun a => Fin.ext (by match a with | ⟨0, _⟩ => rfl | ⟨1, _⟩ => rfl)
theorem e_r18 (u : Fin 1) (j : Fin 64) (k : Fin 500000) : ridx_main_v18 (ix2 u j) k = ix2 k j := funext fun a => Fin.ext (by match a with | ⟨0, _⟩ => rfl | ⟨1, _⟩ => rfl)

/-! ## The stages on real data -/

variable (A0 : FVec Ideal S1x128 .f32) (A1 : FVec Ideal S500000x128 .f32) (A2 : FVec Ideal S128x64 .f32)
  (A3 A4 : FVec Ideal S64x1 .f32)
variable (h0 : ∀ i, ∃ r : ℝ, A0 i = (r : EReal)) (h1 : ∀ i, ∃ r : ℝ, A1 i = (r : EReal))
  (h2 : ∀ i, ∃ r : ℝ, A2 i = (r : EReal)) (h3 : ∀ i, ∃ r : ℝ, A3 i = (r : EReal)) (h4 : ∀ i, ∃ r : ℝ, A4 i = (r : EReal))

include h0 h2 in
theorem own_feat (j : Fin 64) :
    val_main_v0 (F := Ideal) A0 A2 (ix2 (0 : Fin 1) j) = ((xt (xR A0) (KR A2) j : ℝ) : EReal) := by
  rw [val_main_v0_apply]
  simp only [e_l0, e_r0, xR_eq h0, KR_eq h2]
  exact dot_coe _ _

include h1 h2 in
theorem row_feat (r : Fin 500000) (j : Fin 64) :
    val_main_v1 (F := Ideal) A1 A2 (ix2 r j) = ((feat (XR A1) (KR A2) r.val j : ℝ) : EReal) := by
  rw [val_main_v1_apply]
  simp only [e_l1, e_r1, fun f => XR_eq h1 r r.val rfl f, KR_eq h2]
  exact dot_coe _ _

include h0 h2 h3 in
theorem own_score :
    val_main_v2 (F := Ideal) A0 A2 A3 (ix2 (0 : Fin 1) (0 : Fin 1)) = ((aself (xR A0) (KR A2) (aR A3) : ℝ) : EReal) := by
  rw [val_main_v2_apply]
  simp only [e_l2, e_r2, own_feat A0 A2 h0 h2, aR_eq h3]
  exact dot_coe _ _

include h0 h1 h2 h3 h4 in
theorem row_score (r : Fin 500000) :
    val_main_v6 (F := Ideal) A0 A1 A2 A3 A4 (ix2 (0 : Fin 1) r)
      = ((score (xR A0) (XR A1) (KR A2) (aR A3) (aR A4) r.val : ℝ) : EReal) := by
  rw [val_main_v6_apply, e_6, val_main_v5_apply, val_main_v4_apply, e_4, own_score A0 A2 A3 h0 h2 h3, val_main_v3_apply]
  simp only [e_l3, e_r3, row_feat A1 A2 h1 h2, aR_eq h4]
  rw [dot_coe]
  exact (EReal.coe_add _ _).symm

include h0 h1 h2 h3 h4 in
/-- The reference's result, column by column. -/
theorem result :
    ∃ M : ℝ, ∀ j : Fin 64, val_main_v23 (F := Ideal) A0 A1 A2 A3 A4 (ix2 (0 : Fin 1) j)
      = Ideal.ofBits .f32 0x3F400000#32
          * ((∑ r : Fin 500000, Real.exp (score (xR A0) (XR A1) (KR A2) (aR A3) (aR A4) r.val - M)
              / (0 + ∑ r' : Fin 500000, Real.exp (score (xR A0) (XR A1) (KR A2) (aR A3) (aR A4) r'.val - M))
              * feat (XR A1) (KR A2) r.val j : ℝ) : EReal)
        + Ideal.ofBits .f32 0x3E800000#32 * ((xt (xR A0) (KR A2) j : ℝ) : EReal) := by
  have hsc := row_score A0 A1 A2 A3 A4 h0 h1 h2 h3 h4
  -- the largest score is a real
  have h7 : val_main_v7 (F := Ideal) A0 A1 A2 A3 A4 (ix1 (0 : Fin 1))
      = (Finset.univ : Finset (Fin 500000)).fold max (⊥ : EReal)
          (fun k => ((score (xR A0) (XR A1) (KR A2) (aR A3) (aR A4) k.val : ℝ) : EReal)) := by
    unfold val_main_v7
    refine (Cert.RowOps.hostReduce_max_rows (val_main_v6 (F := Ideal) A0 A1 A2 A3 A4) (val_main_cst (F := Ideal))
      reducesTo_S1x500000_S1_d1 (by decide) h_S_ (0 : Fin 1)).trans ?_
    rw [show val_main_cst (F := Ideal) ix0 = Ideal.ofBits .f32 0xFF800000#32 from rfl, Cert.ColReduce.ofBits_neg_inf_f32]
    exact congrArg (Finset.fold max _ · _) (funext fun k => hsc k)
  obtain ⟨M, hM⟩ := fold_max_real (n := 500000) (by norm_num)
    (fun k => score (xR A0) (XR A1) (KR A2) (aR A3) (aR A4) k.val)
  have h11 : ∀ r : Fin 500000, val_main_v11 (F := Ideal) A0 A1 A2 A3 A4 (ix2 (0 : Fin 1) r) = (M : EReal) := by
    intro r
    rw [val_main_v11_apply, e_11, val_main_v10_apply, e_10, val_main_v9_apply, h7, hM, val_main_v8_apply]
    show max (Ideal.ofBits .f32 0xFF800000#32) (M : EReal) = _
    rw [Cert.ColReduce.ofBits_neg_inf_f32, max_bot_left]
  have h13 : ∀ r : Fin 500000, val_main_v13 (F := Ideal) A0 A1 A2 A3 A4 (ix2 (0 : Fin 1) r)
      = ((Real.exp (score (xR A0) (XR A1) (KR A2) (aR A3) (aR A4) r.val - M) : ℝ) : EReal) := by
    intro r
    rw [val_main_v13_apply, val_main_v12_apply, hsc, h11]
    exact exp_sub_coe _ _
  have h14 : val_main_v14 (F := Ideal) A0 A1 A2 A3 A4 (ix1 (0 : Fin 1))
      = ((0 + ∑ r' : Fin 500000, Real.exp (score (xR A0) (XR A1) (KR A2) (aR A3) (aR A4) r'.val - M) : ℝ) : EReal) := by
    rw [val_main_v14_apply]
    simp only [e_14, h13]
    rw [coe_sum, show val_main_cst_1 (F := Ideal) (Shape.Idx.first h_S_) = Ideal.ofBits .f32 0x00000000#32 from rfl,
      Ideal.ofBits_zero_f32, EReal.coe_add, EReal.coe_zero]
  have hL : (0 + ∑ r' : Fin 500000, Real.exp (score (xR A0) (XR A1) (KR A2) (aR A3) (aR A4) r'.val - M)) ≠ 0 := by
    have : 0 < ∑ r' : Fin 500000, Real.exp (score (xR A0) (XR A1) (KR A2) (aR A3) (aR A4) r'.val - M) :=
      Finset.sum_pos (fun _ _ => Real.exp_pos _) ⟨⟨0, by norm_num⟩, Finset.mem_univ _⟩
    linarith
  have h17 : ∀ r : Fin 500000, val_main_v17 (F := Ideal) A0 A1 A2 A3 A4 (ix2 (0 : Fin 1) r)
      = ((Real.exp (score (xR A0) (XR A1) (KR A2) (aR A3) (aR A4) r.val - M)
          / (0 + ∑ r' : Fin 500000, Real.exp (score (xR A0) (XR A1) (KR A2) (aR A3) (aR A4) r'.val - M)) : ℝ) : EReal) := by
    intro r
    rw [val_main_v17_apply, h13, val_main_v16_apply, e_16, val_main_v15_apply, e_15, h14]
    exact div_coe_coe _ _ hL
  refine ⟨M, fun j => ?_⟩
  rw [val_main_v23_apply, val_main_v20_apply, val_main_v22_apply, val_main_v18_apply, own_feat A0 A2 h0 h2]
  simp only [e_l18, e_r18, h17, row_feat A1 A2 h1 h2]
  rw [dot_coe]
  rfl

end Cert.ReferenceIdeal.RefValue

end
-- ==== Proof.Pieces.lean ====
/-
  What one run of the kernel body leaves behind, as values.

  The body keeps three things between grid points: the shift, the sum and the weighted sums.  At the first point of
  a core it first stores `-∞`, `0` and `0` and reads them back; at every point it then stores the new shift, sum and
  weighted sums computed from the point's block and from what was kept; at the last point of a core it copies the three
  into the output blocks.  Each store covers its buffer whole, so what a buffer holds afterwards is the last store's value.
-/
import proofs.«125645_j56796647522361_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A point inside a core's stretch -/

theorem scratch_B_0 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : ¬cond0_0 i) (hc1 : ¬cond0_1 i)
    (x0 : Vec F S10000x128 .f32) (x1 : Vec F S128x65 .f32) (x2 : Vec F S1x1 .f32) (xs0 : Vec F S1x1 .f32) (xs1 : Vec F S1x1 .f32) (xs2 : Vec F S1x64 .f32) :
    sout0_B_0 c i arg2 harg2 arg3 harg3 arg4 harg4 arg5 harg5 arg6 harg6 arg7 harg7 arg8 harg8 arg9 harg9 arg10 harg10 hc0 hc1 x0 x1 x2 xs0 xs1 xs2 = k0_pay12 x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  exact shapeCast_self _ _

theorem scratch_B_1 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : ¬cond0_0 i) (hc1 : ¬cond0_1 i)
    (x0 : Vec F S10000x128 .f32) (x1 : Vec F S128x65 .f32) (x2 : Vec F S1x1 .f32) (xs0 : Vec F S1x1 .f32) (xs1 : Vec F S1x1 .f32) (xs2 : Vec F S1x64 .f32) :
    sout0_B_1 c i arg2 harg2 arg3 harg3 arg4 harg4 arg5 harg5 arg6 harg6 arg7 harg7 arg8 harg8 arg9 harg9 arg10 harg10 hc0 hc1 x0 x1 x2 xs0 xs1 xs2 = k0_pay15 x0 x1 x2 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  exact shapeCast_self _ _

theorem scratch_B_2 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : ¬cond0_0 i) (hc1 : ¬cond0_1 i)
    (x0 : Vec F S10000x128 .f32) (x1 : Vec F S128x65 .f32) (x2 : Vec F S1x1 .f32) (xs0 : Vec F S1x1 .f32) (xs1 : Vec F S1x1 .f32) (xs2 : Vec F S1x64 .f32) :
    sout0_B_2 c i arg2 harg2 arg3 harg3 arg4 harg4 arg5 harg5 arg6 harg6 arg7 harg7 arg8 harg8 arg9 harg9 arg10 harg10 hc0 hc1 x0 x1 x2 xs0 xs1 xs2 = k0_pay16 x0 x1 x2 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  exact shapeCast_self _ _

/-! ## The last point of a core's stretch -/

theorem scratch_C_0 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : ¬cond0_0 i) (hc1 : cond0_1 i)
    (x0 : Vec F S10000x128 .f32) (x1 : Vec F S128x65 .f32) (x2 : Vec F S1x1 .f32) (xs0 : Vec F S1x1 .f32) (xs1 : Vec F S1x1 .f32) (xs2 : Vec F S1x64 .f32) :
    sout0_C_0 c i arg2 harg2 arg3 harg3 arg4 harg4 arg5 harg5 arg6 harg6 arg7 harg7 arg8 harg8 arg9 harg9 arg10 harg10 hc0 hc1 x0 x1 x2 xs0 xs1 xs2 = k0_pay12 x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  exact shapeCast_self _ _

theorem scratch_C_1 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : ¬cond0_0 i) (hc1 : cond0_1 i)
    (x0 : Vec F S10000x128 .f32) (x1 : Vec F S128x65 .f32) (x2 : Vec F S1x1 .f32) (xs0 : Vec F S1x1 .f32) (xs1 : Vec F S1x1 .f32) (xs2 : Vec F S1x64 .f32) :
    sout0_C_1 c i arg2 harg2 arg3 harg3 arg4 harg4 arg5 harg5 arg6 harg6 arg7 harg7 arg8 harg8 arg9 harg9 arg10 harg10 hc0 hc1 x0 x1 x2 xs0 xs1 xs2 = k0_pay15 x0 x1 x2 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  exact shapeCast_self _ _

theorem scratch_C_2 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : ¬cond0_0 i) (hc1 : cond0_1 i)
    (x0 : Vec F S10000x128 .f32) (x1 : Vec F S128x65 .f32) (x2 : Vec F S1x1 .f32) (xs0 : Vec F S1x1 .f32) (xs1 : Vec F S1x1 .f32) (xs2 : Vec F S1x64 .f32) :
    sout0_C_2 c i arg2 harg2 arg3 harg3 arg4 harg4 arg5 harg5 arg6 harg6 arg7 harg7 arg8 harg8 arg9 harg9 arg10 harg10 hc0 hc1 x0 x1 x2 xs0 xs1 xs2 = k0_pay16 x0 x1 x2 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  exact shapeCast_self _ _

theorem out_C_3 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : ¬cond0_0 i) (hc1 : cond0_1 i)
    (x0 : Vec F S10000x128 .f32) (x1 : Vec F S128x65 .f32) (x2 : Vec F S1x1 .f32) (xs0 : Vec F S1x1 .f32) (xs1 : Vec F S1x1 .f32) (xs2 : Vec F S1x64 .f32) :
    out0_C_3 c i arg2 harg2 arg3 harg3 arg4 harg4 arg5 harg5 arg6 harg6 arg7 harg7 arg8 harg8 arg9 harg9 arg10 harg10 hc0 hc1 x0 x1 x2 xs0 xs1 xs2 = shapeCast S1x1x1 (k0_pay12 x0 x1 x2 xs0) shapeCasts_S1x1_S1x1x1 := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readCov_unit_zero (S := S1x1) _ hz2, View.readCov_unit_zero (S := S1x64) _ hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  unfold k0_pay4 k0_pay1
  dsimp only
  rw [shapeCast_self]

theorem out_C_4 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : ¬cond0_0 i) (hc1 : cond0_1 i)
    (x0 : Vec F S10000x128 .f32) (x1 : Vec F S128x65 .f32) (x2 : Vec F S1x1 .f32) (xs0 : Vec F S1x1 .f32) (xs1 : Vec F S1x1 .f32) (xs2 : Vec F S1x64 .f32) :
    out0_C_4 c i arg2 harg2 arg3 harg3 arg4 harg4 arg5 harg5 arg6 harg6 arg7 harg7 arg8 harg8 arg9 harg9 arg10 harg10 hc0 hc1 x0 x1 x2 xs0 xs1 xs2 = shapeCast S1x1x1 (k0_pay15 x0 x1 x2 xs0 xs1) shapeCasts_S1x1_S1x1x1 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readCov_unit_zero (S := S1x1) _ hz2, View.readCov_unit_zero (S := S1x64) _ hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  unfold k0_pay5 k0_pay2
  dsimp only
  rw [shapeCast_self]

theorem out_C_5 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : ¬cond0_0 i) (hc1 : cond0_1 i)
    (x0 : Vec F S10000x128 .f32) (x1 : Vec F S128x65 .f32) (x2 : Vec F S1x1 .f32) (xs0 : Vec F S1x1 .f32) (xs1 : Vec F S1x1 .f32) (xs2 : Vec F S1x64 .f32) :
    out0_C_5 c i arg2 harg2 arg3 harg3 arg4 harg4 arg5 harg5 arg6 harg6 arg7 harg7 arg8 harg8 arg9 harg9 arg10 harg10 hc0 hc1 x0 x1 x2 xs0 xs1 xs2 = shapeCast S1x1x64 (k0_pay16 x0 x1 x2 xs0 xs2) shapeCasts_S1x64_S1x1x64 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readCov_unit_zero (S := S1x1) _ hz2, View.readCov_unit_zero (S := S1x64) _ hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  unfold k0_pay6 k0_pay3
  dsimp only
  rw [shapeCast_self]

/-! ## The first point of a core's stretch -/

theorem scratch_A_0 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : cond0_0 i) (hc1 : ¬cond0_1 i)
    (x0 : Vec F S10000x128 .f32) (x1 : Vec F S128x65 .f32) (x2 : Vec F S1x1 .f32) :
    sout0_A_0 c i arg2 harg2 arg3 harg3 arg4 harg4 arg5 harg5 arg6 harg6 arg7 harg7 arg8 harg8 arg9 harg9 arg10 harg10 hc0 hc1 x0 x1 x2 = k0_pay12 x0 x1 x2 k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz2]
  simp only [View.readCov_unit_zero (S := S1x1) _ hz2, View.readCov_unit_zero (S := S1x64) _ hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  exact shapeCast_self _ _

theorem scratch_A_1 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : cond0_0 i) (hc1 : ¬cond0_1 i)
    (x0 : Vec F S10000x128 .f32) (x1 : Vec F S128x65 .f32) (x2 : Vec F S1x1 .f32) :
    sout0_A_1 c i arg2 harg2 arg3 harg3 arg4 harg4 arg5 harg5 arg6 harg6 arg7 harg7 arg8 harg8 arg9 harg9 arg10 harg10 hc0 hc1 x0 x1 x2 = k0_pay15 x0 x1 x2 k0_pay7 k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz2]
  simp only [View.readCov_unit_zero (S := S1x1) _ hz2, View.readCov_unit_zero (S := S1x64) _ hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  exact shapeCast_self _ _

theorem scratch_A_2 (c : Dev nD) (i : grid0.Coords) (arg2 : Memref sig .tc .vmem S10000x128 .f32) (harg2 : arg2.IsWhole) (arg3 : Memref sig .tc .vmem S128x65 .f32) (harg3 : arg3.IsWhole) (arg4 : Memref sig .tc .vmem S1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole) (hc0 : cond0_0 i) (hc1 : ¬cond0_1 i)
    (x0 : Vec F S10000x128 .f32) (x1 : Vec F S128x65 .f32) (x2 : Vec F S1x1 .f32) :
    sout0_A_2 c i arg2 harg2 arg3 harg3 arg4 harg4 arg5 harg5 arg6 harg6 arg7 harg7 arg8 harg8 arg9 harg9 arg10 harg10 hc0 hc1 x0 x1 x2 = k0_pay16 x0 x1 x2 k0_pay7 k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x64) hz2]
  simp only [View.readCov_unit_zero (S := S1x1) _ hz2, View.readCov_unit_zero (S := S1x64) _ hz2]
  simp only [View.readAt_eq_ld, harg2.read_unread, harg3.read_unread, harg4.read_unread, harg8.read_unread, harg9.read_unread, harg10.read_unread, View.ld_unit_zero (S := S10000x128) hz2, View.ld_unit_zero (S := S128x65) hz2, View.ld_unit_zero (S := S1x1) hz2, View.ld_unit_zero (S := S1x64) hz2]
  exact shapeCast_self _ _

end Cert.KernelIdeal.Pieces

end
-- ==== Proof.Pay.lean ====
/-
  The kernel body's arithmetic at one grid point, read entry by entry on the extended reals.

  With `x0` the point's block of neighbour rows `[10000, 128]`, `x1` the augmented weight matrix `[128, 65]`, `x2` the
  node's own score `[1, 1]`, and `xs0`, `xs1`, `xs2` the shift, the sum and the weighted sums kept so far:
  the product `P = x0 · x1` has the projected features in columns 0..63 and the neighbour score in column 64; a
  row's score is `x2 + P(r, 64)`; the new shift is the maximum of the old one and the block's scores; what is kept is
  rescaled by `exp (old shift - new shift)` and the block's exponentials are added.
-/
import proofs.«125645_j56796647522361_2_alg».proof.Proof.Gen.KernelIdeal.Skeleton
import proofs.«125645_j56796647522361_2_alg».proof.Proof.LibRowOps
import proofs.«125645_j56796647522361_2_alg».proof.Proof.LibColReduce
import Idealize.ShloMosaic.Lib.ValueLayout

noncomputable section

namespace Cert.KernelIdeal.Pay

open Cert.KernelIdeal Cert.KernelIdeal.Gen Idealize.ShloMosaic Idealize.ShloMosaic.ValueIdx
open scoped BigOperators

/-! ## The block product's dimension numbers: which coordinate is which -/

theorem mm_l0 (i : S10000x65.Idx) (q : dot_S10000x128_S128x65_S10000x65_1_0_0_1_n_n.contr.Idx) :
    (dot_S10000x128_S128x65_S10000x65_1_0_0_1_n_n.lhsIdx i q 0).val = (i 0).val := by
  unfold DotDims.lhsIdx
  rw [dif_neg (show ¬(0 : Fin S10000x128.rank) ∈ dot_S10000x128_S128x65_S10000x65_1_0_0_1_n_n.lhsBatch by decide), dif_pos (show (0 : Fin S10000x128.rank) ∈ dot_S10000x128_S128x65_S10000x65_1_0_0_1_n_n.lhsNonContracting by decide)]
  rfl
theorem mm_l1 (i : S10000x65.Idx) (q : dot_S10000x128_S128x65_S10000x65_1_0_0_1_n_n.contr.Idx) :
    (dot_S10000x128_S128x65_S10000x65_1_0_0_1_n_n.lhsIdx i q 1).val = (q ⟨0, by decide⟩).val :=
  dot_S10000x128_S128x65_S10000x65_1_0_0_1_n_n.lhsIdx_val_of_single rfl i q
theorem mm_r0 (i : S10000x65.Idx) (q : dot_S10000x128_S128x65_S10000x65_1_0_0_1_n_n.contr.Idx) :
    (dot_S10000x128_S128x65_S10000x65_1_0_0_1_n_n.rhsIdx i q 0).val = (q ⟨0, by decide⟩).val :=
  dot_S10000x128_S128x65_S10000x65_1_0_0_1_n_n.rhsIdx_val_of_single rfl i q
theorem mm_r1 (i : S10000x65.Idx) (q : dot_S10000x128_S128x65_S10000x65_1_0_0_1_n_n.contr.Idx) :
    (dot_S10000x128_S128x65_S10000x65_1_0_0_1_n_n.rhsIdx i q 1).val = (i 1).val := by
  unfold DotDims.rhsIdx
  rw [dif_neg (show ¬(1 : Fin S128x65.rank) ∈ dot_S10000x128_S128x65_S10000x65_1_0_0_1_n_n.rhsBatch by decide), dif_pos (show (1 : Fin S128x65.rank) ∈ dot_S10000x128_S128x65_S10000x65_1_0_0_1_n_n.rhsNonContracting by decide)]
  rfl

/-! ## The payloads at an entry -/

/-- The block product at `(r, j)`. -/
theorem prod_entry (x0 : FVec Ideal S10000x128 .f32) (x1 : FVec Ideal S128x65 .f32) (r : Fin 10000) (j : Fin 65) :
    k0_pay10 (F := Ideal) x0 x1 (ix2 r j) = ∑ f : Fin 128, x0 (ix2 r f) * x1 (ix2 f j) := by
  unfold k0_pay10
  rw [shapeCast_self]
  exact Cert.RowOps.matmul_zero_entry dot_S10000x128_S128x65_S10000x65_1_0_0_1_n_n rfl rfl mm_l0 mm_l1 mm_r0 mm_r1 none
    (truncf .bf16 x0 bitsLt_bf16_f32) (truncf .bf16 x1 bitsLt_bf16_f32) r j

/-- A row's score: the node's own score plus column 64 of the product. -/
theorem score_entry (x0 : FVec Ideal S10000x128 .f32) (x1 : FVec Ideal S128x65 .f32) (x2 : FVec Ideal S1x1 .f32)
    (r : Fin 10000) (u : Fin 1) :
    k0_pay11 (F := Ideal) x0 x1 x2 (ix2 r u) = x2 (ix2 (0 : Fin 1) (0 : Fin 1)) + k0_pay10 (F := Ideal) x0 x1 (ix2 r (64 : Fin 65)) := by
  unfold k0_pay11
  rw [shapeCast_self]
  show broadcastTo S10000x1 x2 broadcasts_S1x1_S10000x1 (ix2 r u)
      + extractStridedSlice S10000x1 ![0, 64] (k0_pay10 (F := Ideal) x0 x1) slices_S10000x65_o0_64_S10000x1 (ix2 r u) = _
  rw [Cert.ColReduce.broadcastTo_11_a1 x2 broadcasts_S1x1_S10000x1 r u,
    slice2_axis1_apply 64 (k0_pay10 (F := Ideal) x0 x1) slices_S10000x65_o0_64_S10000x1 r u (64 : Fin 65) (by
      have : u.val = 0 := by omega
      show 64 = 64 + u.val
      omega)]

/-- The new shift: the old one against the block's scores. -/
theorem shift_entry (x0 : FVec Ideal S10000x128 .f32) (x1 : FVec Ideal S128x65 .f32) (x2 xs0 : FVec Ideal S1x1 .f32)
    (u v : Fin 1) :
    k0_pay12 (F := Ideal) x0 x1 x2 xs0 (ix2 u v)
      = max (xs0 (ix2 u v)) ((Finset.univ : Finset (Fin 10000)).fold max (⊥ : EReal)
          (fun k => k0_pay11 (F := Ideal) x0 x1 x2 (ix2 k (0 : Fin 1)))) := by
  unfold k0_pay12
  show max (xs0 (ix2 u v)) (shapeCast S1x1 (multiReduction .maximumf [0] S1 (k0_pay11 (F := Ideal) x0 x1 x2) 0xFF800000#32 reduces_S10000x1_S1 (.inl rfl) rfl) shapeCasts_S1_S1x1 (ix2 u v)) = _
  rw [Cert.ColReduce.shapeCast_1_11 _ shapeCasts_S1_S1x1 u v]
  refine congrArg (max _) ?_
  refine (Cert.ColReduce.multiReduction_max_cols (k0_pay11 (F := Ideal) x0 x1 x2) 0xFF800000#32 reduces_S10000x1_S1 (.inl rfl) rfl (0 : Fin 1)).trans ?_
  rw [Cert.ColReduce.ofBits_neg_inf_f32]

/-- The rescaling factor. -/
theorem scale_entry (x0 : FVec Ideal S10000x128 .f32) (x1 : FVec Ideal S128x65 .f32) (x2 xs0 : FVec Ideal S1x1 .f32)
    (u v : Fin 1) :
    k0_pay13 (F := Ideal) x0 x1 x2 xs0 (ix2 u v)
      = Ideal.exp (xs0 (ix2 u v) - k0_pay12 (F := Ideal) x0 x1 x2 xs0 (ix2 u v)) := rfl

/-- A row's exponential under the new shift. -/
theorem expo_entry (x0 : FVec Ideal S10000x128 .f32) (x1 : FVec Ideal S128x65 .f32) (x2 xs0 : FVec Ideal S1x1 .f32)
    (r : Fin 10000) (u : Fin 1) :
    k0_pay14 (F := Ideal) x0 x1 x2 xs0 (ix2 r u)
      = Ideal.exp (k0_pay11 (F := Ideal) x0 x1 x2 (ix2 r u) - k0_pay12 (F := Ideal) x0 x1 x2 xs0 (ix2 (0 : Fin 1) (0 : Fin 1))) := by
  unfold k0_pay14
  show Ideal.exp (k0_pay11 (F := Ideal) x0 x1 x2 (ix2 r u)
      - broadcastTo S10000x1 (k0_pay12 (F := Ideal) x0 x1 x2 xs0) broadcasts_S1x1_S10000x1 (ix2 r u)) = _
  rw [Cert.ColReduce.broadcastTo_11_a1 _ broadcasts_S1x1_S10000x1 r u]

/-- The sum kept, after the block. -/
theorem sum_entry (x0 : FVec Ideal S10000x128 .f32) (x1 : FVec Ideal S128x65 .f32) (x2 xs0 xs1 : FVec Ideal S1x1 .f32)
    (u v : Fin 1) :
    k0_pay15 (F := Ideal) x0 x1 x2 xs0 xs1 (ix2 u v)
      = k0_pay13 (F := Ideal) x0 x1 x2 xs0 (ix2 u v) * xs1 (ix2 u v)
        + ∑ k : Fin 10000, k0_pay14 (F := Ideal) x0 x1 x2 xs0 (ix2 k (0 : Fin 1)) := by
  unfold k0_pay15
  show k0_pay13 (F := Ideal) x0 x1 x2 xs0 (ix2 u v) * xs1 (ix2 u v)
      + shapeCast S1x1 (multiReduction .add [0] S1 (k0_pay14 (F := Ideal) x0 x1 x2 xs0) 0x00000000#32 reduces_S10000x1_S1 (.inl rfl) rfl) shapeCasts_S1_S1x1 (ix2 u v) = _
  rw [Cert.ColReduce.shapeCast_1_11 _ shapeCasts_S1_S1x1 u v]
  congr 1
  exact Cert.ColReduce.multiReduction_add_cols (k0_pay14 (F := Ideal) x0 x1 x2 xs0) 0x00000000#32 reduces_S10000x1_S1 (.inl rfl) rfl (0 : Fin 1)

/-- The weighted sums kept, after the block. -/
theorem wsum_entry (x0 : FVec Ideal S10000x128 .f32) (x1 : FVec Ideal S128x65 .f32) (x2 xs0 : FVec Ideal S1x1 .f32)
    (xs2 : FVec Ideal S1x64 .f32) (u : Fin 1) (j : Fin 64) (j' : Fin 65) (hj : j'.val = j.val) :
    k0_pay16 (F := Ideal) x0 x1 x2 xs0 xs2 (ix2 u j)
      = k0_pay13 (F := Ideal) x0 x1 x2 xs0 (ix2 (0 : Fin 1) (0 : Fin 1)) * xs2 (ix2 u j)
        + ∑ k : Fin 10000, k0_pay14 (F := Ideal) x0 x1 x2 xs0 (ix2 k (0 : Fin 1)) * k0_pay10 (F := Ideal) x0 x1 (ix2 k j') := by
  unfold k0_pay16
  show broadcastTo S1x64 (k0_pay13 (F := Ideal) x0 x1 x2 xs0) broadcasts_S1x1_S1x64 (ix2 u j) * xs2 (ix2 u j)
      + shapeCast S1x64 (multiReduction .add [0] S64
          (mulf (broadcastTo S10000x64 (k0_pay14 (F := Ideal) x0 x1 x2 xs0) broadcasts_S10000x1_S10000x64)
            (extractStridedSlice S10000x64 ![0, 0] (k0_pay10 (F := Ideal) x0 x1) slices_S10000x65_o0_0_S10000x64))
          0x00000000#32 reduces_S10000x64_S64 (.inl rfl) rfl) shapeCasts_S64_S1x64 (ix2 u j) = _
  rw [Cert.ColReduce.broadcastTo_11_1b _ broadcasts_S1x1_S1x64 u j, shapeCast_a_1a_apply _ shapeCasts_S64_S1x64 u j]
  congr 1
  refine (Cert.ColReduce.multiReduction_add_cols _ 0x00000000#32 reduces_S10000x64_S64 (.inl rfl) rfl j).trans ?_
  refine Finset.sum_congr rfl fun k _ => ?_
  show broadcastTo S10000x64 (k0_pay14 (F := Ideal) x0 x1 x2 xs0) broadcasts_S10000x1_S10000x64 (ix2 k j)
      * extractStridedSlice S10000x64 ![0, 0] (k0_pay10 (F := Ideal) x0 x1) slices_S10000x65_o0_0_S10000x64 (ix2 k j) = _
  rw [Cert.ColReduce.broadcastTo_a1_ab _ broadcasts_S10000x1_S10000x64 k j,
    slice2_axis1_apply 0 (k0_pay10 (F := Ideal) x0 x1) slices_S10000x65_o0_0_S10000x64 k j j' (by omega)]

end Cert.KernelIdeal.Pay

end
-- ==== Proof.Tile.lean ====
/-
  One grid point on real data: the body's arithmetic carries a streaming-softmax state over one more block of rows.

  The state of the rows `a ≤ q < b` under a shift `m` is the triple  m,  ∑ exp (score q - m),  ∑ exp (score q - m) · feat q j.
  The body, given the block of rows `b ≤ q < b + 10000`, the augmented weights and the node's own score, turns the
  state of `[a, b)` into a state of `[a, b + 10000)`; started from `-∞, 0, 0` it produces a state of the block alone.
-/
import proofs.«125645_j56796647522361_2_alg».proof.Proof.Pay
import proofs.«125645_j56796647522361_2_alg».proof.Proof.Model

noncomputable section

namespace Cert.KernelIdeal.Tile

open Cert.KernelIdeal Cert.KernelIdeal.Gen Cert.KernelIdeal.Pay Cert.GatModel Cert.GatSpec
open Idealize.ShloMosaic Idealize.ShloMosaic.ValueIdx
open scoped BigOperators

variable (x : Fin 128 → ℝ) (X : ℕ → Fin 128 → ℝ) (K : Fin 128 → Fin 64 → ℝ) (aS an : Fin 64 → ℝ)

/-- The three inputs of a grid point hold real data: the block is the rows from `b` on, the weights are `K` with the
    folded attention column appended, the node's own score is `aself`. -/
structure BlockData (b : ℕ) (x0 : FVec Ideal S10000x128 .f32) (x1 : FVec Ideal S128x65 .f32)
    (x2 : FVec Ideal S1x1 .f32) : Prop where
  rows : ∀ (k : Fin 10000) (f : Fin 128), x0 (ix2 k f) = ((X (b + k.val) f : ℝ) : EReal)
  wts : ∀ (f : Fin 128) (j : Fin 64) (j' : Fin 65), j'.val = j.val → x1 (ix2 f j') = ((K f j : ℝ) : EReal)
  wlast : ∀ f : Fin 128, x1 (ix2 f (64 : Fin 65)) = ((wn K an f : ℝ) : EReal)
  own : x2 (ix2 (0 : Fin 1) (0 : Fin 1)) = ((aself x K aS : ℝ) : EReal)

/-- A streaming-softmax state of the rows `a ≤ q < b`, held in three buffers. -/
def StateAt (a b : ℕ) (S0 S1 : FVec Ideal S1x1 .f32) (S2 : FVec Ideal S1x64 .f32) : Prop :=
  ∃ m : ℝ, S0 (ix2 (0 : Fin 1) (0 : Fin 1)) = (m : EReal)
    ∧ S1 (ix2 (0 : Fin 1) (0 : Fin 1)) = ((wsum (score x X K aS an) (fun _ => 1) m a b : ℝ) : EReal)
    ∧ ∀ j : Fin 64, S2 (ix2 (0 : Fin 1) j) = ((wsum (score x X K aS an) (fun q => feat X K q j) m a b : ℝ) : EReal)

variable {x X K aS an}

/-- The larger of two reals, read on the extended reals. -/
theorem coe_max' (a b : ℝ) : ((max a b : ℝ) : EReal) = max (a : EReal) (b : EReal) :=
  EReal.coe_strictMono.monotone.map_max
variable {b : ℕ} {x0 : FVec Ideal S10000x128 .f32} {x1 : FVec Ideal S128x65 .f32} {x2 : FVec Ideal S1x1 .f32}

/-- The projected features of the block's rows. -/
theorem feat_entry (h : BlockData x X K aS an b x0 x1 x2) (k : Fin 10000) (j : Fin 64) (j' : Fin 65) (hj : j'.val = j.val) :
    k0_pay10 (F := Ideal) x0 x1 (ix2 k j') = ((feat X K (b + k.val) j : ℝ) : EReal) := by
  rw [prod_entry]
  simp only [h.rows, h.wts _ j j' hj]
  exact dot_coe _ _

/-- The scores of the block's rows. -/
theorem score_entry' (h : BlockData x X K aS an b x0 x1 x2) (k : Fin 10000) :
    k0_pay11 (F := Ideal) x0 x1 x2 (ix2 k (0 : Fin 1)) = ((score x X K aS an (b + k.val) : ℝ) : EReal) := by
  rw [score_entry, prod_entry]
  simp only [h.rows, h.wlast, h.own]
  rw [dot_coe, ← EReal.coe_add, score_folded]

/-- The block's largest score is a real. -/
theorem block_max (h : BlockData x X K aS an b x0 x1 x2) :
    ∃ t : ℝ, (Finset.univ : Finset (Fin 10000)).fold max (⊥ : EReal)
      (fun k => k0_pay11 (F := Ideal) x0 x1 x2 (ix2 k (0 : Fin 1))) = (t : EReal) := by
  have e : (fun k : Fin 10000 => k0_pay11 (F := Ideal) x0 x1 x2 (ix2 k (0 : Fin 1)))
      = fun k => ((score x X K aS an (b + k.val) : ℝ) : EReal) := funext fun k => score_entry' h k
  rw [e]
  exact fold_max_real (by norm_num) _

/-- One more block: a state of `[a, b)` becomes a state of `[a, b + 10000)`. -/
theorem step_state (h : BlockData x X K aS an b x0 x1 x2) (a : ℕ) (hab : a ≤ b)
    (xs0 xs1 : FVec Ideal S1x1 .f32) (xs2 : FVec Ideal S1x64 .f32) (hs : StateAt x X K aS an a b xs0 xs1 xs2) :
    StateAt x X K aS an a (b + 10000) (k0_pay12 (F := Ideal) x0 x1 x2 xs0) (k0_pay15 (F := Ideal) x0 x1 x2 xs0 xs1)
      (k0_pay16 (F := Ideal) x0 x1 x2 xs0 xs2) := by
  obtain ⟨m, hm, hl, ha⟩ := hs
  obtain ⟨t, ht⟩ := block_max h
  have h12 : k0_pay12 (F := Ideal) x0 x1 x2 xs0 (ix2 (0 : Fin 1) (0 : Fin 1)) = ((max m t : ℝ) : EReal) := by
    rw [shift_entry, hm, ht, coe_max']
  refine ⟨max m t, h12, ?_, fun j => ?_⟩
  · rw [sum_entry, scale_entry, h12, hm, hl]
    simp only [expo_entry, h12, score_entry' h]
    rw [keep_sum]
    refine congrArg Real.toEReal ?_
    rw [← wsum_append (score x X K aS an) (fun _ => 1) m (max m t) a b 10000 hab
      (fun k => score x X K aS an (b + k.val)) (fun _ => 1) (fun _ => rfl) (fun _ => rfl)]
    simp only [mul_one]
  · rw [wsum_entry x0 x1 x2 xs0 xs2 (0 : Fin 1) j ⟨j.val, by omega⟩ rfl, scale_entry, h12, hm, ha j]
    simp only [expo_entry, h12, score_entry' h, feat_entry h _ j ⟨j.val, by omega⟩ rfl]
    rw [keep_wsum]
    refine congrArg Real.toEReal ?_
    exact wsum_append (score x X K aS an) (fun q => feat X K q j) m (max m t) a b 10000 hab
      (fun k => score x X K aS an (b + k.val)) (fun k => feat X K (b + k.val) j) (fun _ => rfl) (fun _ => rfl)

/-- The first block of a stretch: from `-∞, 0, 0` a state of `[b, b + 10000)`. -/
theorem first_state (h : BlockData x X K aS an b x0 x1 x2)
    (xs0 xs1 : FVec Ideal S1x1 .f32) (xs2 : FVec Ideal S1x64 .f32)
    (hm : xs0 (ix2 (0 : Fin 1) (0 : Fin 1)) = ⊥) (hl : xs1 (ix2 (0 : Fin 1) (0 : Fin 1)) = 0)
    (ha : ∀ j : Fin 64, xs2 (ix2 (0 : Fin 1) j) = 0) :
    StateAt x X K aS an b (b + 10000) (k0_pay12 (F := Ideal) x0 x1 x2 xs0) (k0_pay15 (F := Ideal) x0 x1 x2 xs0 xs1)
      (k0_pay16 (F := Ideal) x0 x1 x2 xs0 xs2) := by
  obtain ⟨t, ht⟩ := block_max h
  have h12 : k0_pay12 (F := Ideal) x0 x1 x2 xs0 (ix2 (0 : Fin 1) (0 : Fin 1)) = ((t : ℝ) : EReal) := by
    rw [shift_entry, hm, ht, max_bot_left]
  refine ⟨t, h12, ?_, fun j => ?_⟩
  · rw [sum_entry, scale_entry, h12, hm, hl]
    simp only [expo_entry, h12, score_entry' h]
    rw [first_sum]
    refine congrArg Real.toEReal ?_
    rw [← wsum_first (score x X K aS an) (fun _ => 1) t b 10000
      (fun k => score x X K aS an (b + k.val)) (fun _ => 1) (fun _ => rfl) (fun _ => rfl)]
    simp only [mul_one]
  · rw [wsum_entry x0 x1 x2 xs0 xs2 (0 : Fin 1) j ⟨j.val, by omega⟩ rfl, scale_entry, h12, hm, ha j]
    simp only [expo_entry, h12, score_entry' h, feat_entry h _ j ⟨j.val, by omega⟩ rfl]
    rw [first_wsum]
    refine congrArg Real.toEReal ?_
    exact wsum_first (score x X K aS an) (fun q => feat X K q j) t b 10000
      (fun k => score x X K aS an (b + k.val)) (fun k => feat X K (b + k.val) j) (fun _ => rfl) (fun _ => rfl)

end Cert.KernelIdeal.Tile

end
-- ==== Proof.LibHostOps.lean ====
/-
  Host operations on matrices read at an entry written by coordinates.

  • A vector `[b]` made a one-row matrix and broadcast over `a` rows reads, at `(p, q)`, the vector at `q`.
  • A vector `[a]` made a one-column matrix and broadcast over `b` columns reads, at `(p, c)`, the vector at `p`.
  • A scalar broadcast to any shape reads the scalar everywhere.
  • Two matrices joined along their columns read, left of the seam, the first, and right of it the second.
  • The host's sum over the columns of a matrix, read at row `p`, is the initial value plus the sum of that row.
  • The host's logarithm and exponential read elementwise.
  • A sum over `a + b` indices is the sum over the first `a` plus the sum over the last `b`.
-/
import Idealize.ShloMosaic.Lib.Pipeline.Value
import Idealize.ShloMosaic.Lib.ValueIdx
import Idealize.ShloMosaic.PureOps.Ideal.Laws

namespace Cert.HostOps

open Idealize.ShloMosaic Idealize.ShloMosaic.ValueIdx
open scoped BigOperators

variable {α : Type}

/-- A scalar broadcast to any shape reads the scalar at every index. -/
theorem bcast_scalar {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-row matrix. -/
theorem bcast_vec_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix broadcast over the rows. -/
theorem bcast_row_rows {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- A vector as a one-column matrix. -/
theorem bcast_vec_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A one-column matrix broadcast over the columns. -/
theorem bcast_col_cols {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- Left of the seam a column-wise join reads its first piece. -/
theorem concat_cols_left {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin a) (j : Fin c)
    (hj : j.val = k.val) :
    concatenate ⟨2, ![n, c]⟩ 1 [⟨⟨2, ![n, a]⟩, u⟩, ⟨⟨2, ![n, b]⟩, v⟩] h (ix2 p j) = u (ix2 p k) :=
  concatenate_pair_apply_left 1 u v h (ix2 p j) rfl (ix2 p k) (fun ax => by
    match ax with
    | ⟨0, _⟩ => rfl
    | ⟨1, _⟩ => exact hj.symm)

/-- Right of the seam it reads its second piece, the first piece's width taken off the column. -/
theorem concat_cols_right {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin b) (j : Fin c)
    (hj : j.val = a + k.val) :
    concatenate ⟨2, ![n, c]⟩ 1 [⟨⟨2, ![n, a]⟩, u⟩, ⟨⟨2, ![n, b]⟩, v⟩] h (ix2 p j) = v (ix2 p k) :=
  concatenate_pair_apply_right 1 u v h (ix2 p j) rfl rfl (ix2 p k) (fun ax hne => by
    match ax with
    | ⟨0, _⟩ => rfl
    | ⟨1, _⟩ => exact absurd rfl hne) (by
    show k.val + a = j.val
    omega)

/-- The host's sum over the columns, at a row. -/
theorem hostReduceAdd_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun ax => Fin.ext (by match ax with | ⟨0, _⟩ => rfl | ⟨1, _⟩ => rfl))

/-- The host's logarithm and exponential, at an index, are the extended reals'. -/
theorem hostLog_apply {s : Shape} {φ : FTy} (x : FVec Ideal s φ) (i : s.Idx) :
    Host.log (F := Ideal) x i = Ideal.log (x i) := rfl
theorem hostExp_apply {s : Shape} {φ : FTy} (x : FVec Ideal s φ) (i : s.Idx) :
    Host.exp (F := Ideal) x i = Ideal.exp (x i) := rfl

/-- A sum over `a + b` indices splits at `a`. -/
theorem sum_split {M : Type} [AddCommMonoid M] (a b : ℕ) (f : Fin (a + b) → M) :
    ∑ k, f k = ∑ k : Fin a, f (Fin.castAdd b k) + ∑ k : Fin b, f (Fin.natAdd a k) :=
  Fin.sum_univ_add f

end Cert.HostOps
-- ==== Proof.Arrays.lean ====
/-
  What the region finds: the arrays the host lines before it wrote, and the blocks of a grid point, on real data.

  Before the region the host computes the node's projected features `xt = x · K`, its own score `aself = xt · as`,
  the folded attention column `wn = K · an`, and the augmented weights `[K | wn]`.  At grid point `t` the first window's
  block is the rows `10000 t ≤ q < 10000 t + 10000` of the neighbour matrix; the other two windows' blocks are the
  whole augmented weights and the node's own score.
-/
import proofs.«125645_j56796647522361_2_alg».proof.Proof.Gen.KernelIdeal.Frame
import proofs.«125645_j56796647522361_2_alg».proof.Proof.Tile
import proofs.«125645_j56796647522361_2_alg».proof.Proof.Inputs
import proofs.«125645_j56796647522361_2_alg».proof.Proof.LibHostOps
import Idealize.ShloMosaic.Lib.StableHlo.Run
import Idealize.ShloMosaic.Lib.Tactic

noncomputable section

namespace Cert.KernelIdeal.Arrays

open Cert.KernelIdeal Cert.KernelIdeal.Gen Cert.KernelIdeal.Tile Cert.GatModel Cert.GatSpec Cert.GatInputs
open Idealize.ShloMosaic Idealize.ShloMosaic.TcCoe Idealize.SL.Sem Idealize.ShloMosaic.ValueIdx
open Idealize.ShloMosaic.Pipeline (Dat)
open scoped BigOperators

/-! ## The host products' dimension numbers: which coordinate is which -/

theorem d0_l0 (i : S1x64.Idx) (q : dot_S1x128_S128x64_S1x64_1_0_0_1_n_n.contr.Idx) : (dot_S1x128_S128x64_S1x64_1_0_0_1_n_n.lhsIdx i q 0).val = (i 0).val := by
  unfold DotDims.lhsIdx
  rw [dif_neg (show ¬(0 : Fin S1x128.rank) ∈ dot_S1x128_S128x64_S1x64_1_0_0_1_n_n.lhsBatch by decide), dif_pos (show (0 : Fin S1x128.rank) ∈ dot_S1x128_S128x64_S1x64_1_0_0_1_n_n.lhsNonContracting by decide)]
  rfl
theorem d0_l1 (i : S1x64.Idx) (q : dot_S1x128_S128x64_S1x64_1_0_0_1_n_n.contr.Idx) : (dot_S1x128_S128x64_S1x64_1_0_0_1_n_n.lhsIdx i q 1).val = (q ⟨0, by decide⟩).val :=
  dot_S1x128_S128x64_S1x64_1_0_0_1_n_n.lhsIdx_val_of_single rfl i q
theorem d0_r0 (i : S1x64.Idx) (q : dot_S1x128_S128x64_S1x64_1_0_0_1_n_n.contr.Idx) : (dot_S1x128_S128x64_S1x64_1_0_0_1_n_n.rhsIdx i q 0).val = (q ⟨0, by decide⟩).val :=
  dot_S1x128_S128x64_S1x64_1_0_0_1_n_n.rhsIdx_val_of_single rfl i q
theorem d0_r1 (i : S1x64.Idx) (q : dot_S1x128_S128x64_S1x64_1_0_0_1_n_n.contr.Idx) : (dot_S1x128_S128x64_S1x64_1_0_0_1_n_n.rhsIdx i q 1).val = (i 1).val := by
  unfold DotDims.rhsIdx
  rw [dif_neg (show ¬(1 : Fin S128x64.rank) ∈ dot_S1x128_S128x64_S1x64_1_0_0_1_n_n.rhsBatch by decide), dif_pos (show (1 : Fin S128x64.rank) ∈ dot_S1x128_S128x64_S1x64_1_0_0_1_n_n.rhsNonContracting by decide)]
  rfl

theorem d1_l0 (i : S1x1.Idx) (q : dot_S1x64_S64x1_S1x1_1_0_0_1_n_n.contr.Idx) : (dot_S1x64_S64x1_S1x1_1_0_0_1_n_n.lhsIdx i q 0).val = (i 0).val := by
  unfold DotDims.lhsIdx
  rw [dif_neg (show ¬(0 : Fin S1x64.rank) ∈ dot_S1x64_S64x1_S1x1_1_0_0_1_n_n.lhsBatch by decide), dif_pos (show (0 : Fin S1x64.rank) ∈ dot_S1x64_S64x1_S1x1_1_0_0_1_n_n.lhsNonContracting by decide)]
  rfl
theorem d1_l1 (i : S1x1.Idx) (q : dot_S1x64_S64x1_S1x1_1_0_0_1_n_n.contr.Idx) : (dot_S1x64_S64x1_S1x1_1_0_0_1_n_n.lhsIdx i q 1).val = (q ⟨0, by decide⟩).val :=
  dot_S1x64_S64x1_S1x1_1_0_0_1_n_n.lhsIdx_val_of_single rfl i q
theorem d1_r0 (i : S1x1.Idx) (q : dot_S1x64_S64x1_S1x1_1_0_0_1_n_n.contr.Idx) : (dot_S1x64_S64x1_S1x1_1_0_0_1_n_n.rhsIdx i q 0).val = (q ⟨0, by decide⟩).val :=
  dot_S1x64_S64x1_S1x1_1_0_0_1_n_n.rhsIdx_val_of_single rfl i q
theorem d1_r1 (i : S1x1.Idx) (q : dot_S1x64_S64x1_S1x1_1_0_0_1_n_n.contr.Idx) : (dot_S1x64_S64x1_S1x1_1_0_0_1_n_n.rhsIdx i q 1).val = (i 1).val := by
  unfold DotDims.rhsIdx
  rw [dif_neg (show ¬(1 : Fin S64x1.rank) ∈ dot_S1x64_S64x1_S1x1_1_0_0_1_n_n.rhsBatch by decide), dif_pos (show (1 : Fin S64x1.rank) ∈ dot_S1x64_S64x1_S1x1_1_0_0_1_n_n.rhsNonContracting by decide)]
  rfl

theorem d2_l0 (i : S128x1.Idx) (q : dot_S128x64_S64x1_S128x1_1_0_0_1_n_n.contr.Idx) : (dot_S128x64_S64x1_S128x1_1_0_0_1_n_n.lhsIdx i q 0).val = (i 0).val := by
  unfold DotDims.lhsIdx
  rw [dif_neg (show ¬(0 : Fin S128x64.rank) ∈ dot_S128x64_S64x1_S128x1_1_0_0_1_n_n.lhsBatch by decide), dif_pos (show (0 : Fin S128x64.rank) ∈ dot_S128x64_S64x1_S128x1_1_0_0_1_n_n.lhsNonContracting by decide)]
  rfl
theorem d2_l1 (i : S128x1.Idx) (q : dot_S128x64_S64x1_S128x1_1_0_0_1_n_n.contr.Idx) : (dot_S128x64_S64x1_S128x1_1_0_0_1_n_n.lhsIdx i q 1).val = (q ⟨0, by decide⟩).val :=
  dot_S128x64_S64x1_S128x1_1_0_0_1_n_n.lhsIdx_val_of_single rfl i q
theorem d2_r0 (i : S128x1.Idx) (q : dot_S128x64_S64x1_S128x1_1_0_0_1_n_n.contr.Idx) : (dot_S128x64_S64x1_S128x1_1_0_0_1_n_n.rhsIdx i q 0).val = (q ⟨0, by decide⟩).val :=
  dot_S128x64_S64x1_S128x1_1_0_0_1_n_n.rhsIdx_val_of_single rfl i q
theorem d2_r1 (i : S128x1.Idx) (q : dot_S128x64_S64x1_S128x1_1_0_0_1_n_n.contr.Idx) : (dot_S128x64_S64x1_S128x1_1_0_0_1_n_n.rhsIdx i q 1).val = (i 1).val := by
  unfold DotDims.rhsIdx
  rw [dif_neg (show ¬(1 : Fin S64x1.rank) ∈ dot_S128x64_S64x1_S128x1_1_0_0_1_n_n.rhsBatch by decide), dif_pos (show (1 : Fin S64x1.rank) ∈ dot_S128x64_S64x1_S128x1_1_0_0_1_n_n.rhsNonContracting by decide)]
  rfl

variable (m : (ℓ : Loc nD τ sig) → Buf (Elt Ideal) ℓ)

/-- The five argument arrays on core `c`. -/
abbrev A0 (c : Dev nD) : FVec Ideal S1x128 .f32 := m ((c : Thread nD τ).loc main_arg0)
abbrev A1 (c : Dev nD) : FVec Ideal S500000x128 .f32 := m ((c : Thread nD τ).loc main_arg1)
abbrev A2 (c : Dev nD) : FVec Ideal S128x64 .f32 := m ((c : Thread nD τ).loc main_arg2)
abbrev A3 (c : Dev nD) : FVec Ideal S64x1 .f32 := m ((c : Thread nD τ).loc main_arg3)
abbrev A4 (c : Dev nD) : FVec Ideal S64x1 .f32 := m ((c : Thread nD τ).loc main_arg4)

/-! ## The arrays the host lines before the region wrote -/

theorem V_v0 (c : Dev nD) : (V m c main_v0 : FVec Ideal S1x64 .f32)
    = Host.dotGeneral (F := Ideal) dot_S1x128_S128x64_S1x64_1_0_0_1_n_n none (A0 m c) (A2 m c) := by
  show StableHlo.after hostOps0 (fun b => m (c, b)) (Proc.devRef .tc main_v0) = _
  after_results

theorem V_v1 (c : Dev nD) : (V m c main_v1 : FVec Ideal S1x1 .f32)
    = Host.dotGeneral (F := Ideal) dot_S1x64_S64x1_S1x1_1_0_0_1_n_n none
        (Host.dotGeneral (F := Ideal) dot_S1x128_S128x64_S1x64_1_0_0_1_n_n none (A0 m c) (A2 m c))
        (A3 m c) := by
  show StableHlo.after hostOps0 (fun b => m (c, b)) (Proc.devRef .tc main_v1) = _
  after_results

theorem V_v3 (c : Dev nD) : (V m c main_v3 : FVec Ideal S128x65 .f32)
    = concatenate S128x65 1 [⟨S128x64, A2 m c⟩,
        ⟨S128x1, Host.dotGeneral (F := Ideal) dot_S128x64_S64x1_S128x1_1_0_0_1_n_n none (A2 m c) (A4 m c)⟩]
        concatenates_S128x64_S128x1_S128x65_d1 := by
  show StableHlo.after hostOps0 (fun b => m (c, b)) (Proc.devRef .tc main_v3) = _
  after_results

/-- The five arguments as real data, on core `c`. -/
structure RealArgs (c : Dev nD) : Prop where
  h0 : ∀ i, ∃ r : ℝ, m ((c : Thread nD τ).loc main_arg0) i = (r : EReal)
  h1 : ∀ i, ∃ r : ℝ, m ((c : Thread nD τ).loc main_arg1) i = (r : EReal)
  h2 : ∀ i, ∃ r : ℝ, m ((c : Thread nD τ).loc main_arg2) i = (r : EReal)
  h3 : ∀ i, ∃ r : ℝ, m ((c : Thread nD τ).loc main_arg3) i = (r : EReal)
  h4 : ∀ i, ∃ r : ℝ, m ((c : Thread nD τ).loc main_arg4) i = (r : EReal)

abbrev xr (c : Dev nD) : Fin 128 → ℝ := xR (A0 m c)
abbrev Xr (c : Dev nD) : ℕ → Fin 128 → ℝ := XR (A1 m c)
abbrev Kr (c : Dev nD) : Fin 128 → Fin 64 → ℝ := KR (A2 m c)
abbrev ar (c : Dev nD) : Fin 64 → ℝ := aR (A3 m c)
abbrev nr (c : Dev nD) : Fin 64 → ℝ := aR (A4 m c)

variable {m}

/-- The node's projected features. -/
theorem v0_entry {c : Dev nD} (h : RealArgs m c) (u : Fin 1) (j : Fin 64) :
    (V m c main_v0 : FVec Ideal S1x64 .f32) (ix2 u j) = ((xt (xr m c) (Kr m c) j : ℝ) : EReal) := by
  rw [V_v0, Cert.RowOps.dotGeneral_entry dot_S1x128_S128x64_S1x64_1_0_0_1_n_n rfl rfl d0_l0 d0_l1 d0_r0 d0_r1]
  simp only [xR_eq h.h0, KR_eq h.h2]
  exact dot_coe _ _

/-- The node's own score. -/
theorem v1_entry {c : Dev nD} (h : RealArgs m c) :
    (V m c main_v1 : FVec Ideal S1x1 .f32) (ix2 (0 : Fin 1) (0 : Fin 1)) = ((aself (xr m c) (Kr m c) (ar m c) : ℝ) : EReal) := by
  rw [V_v1, Cert.RowOps.dotGeneral_entry dot_S1x64_S64x1_S1x1_1_0_0_1_n_n rfl rfl d1_l0 d1_l1 d1_r0 d1_r1]
  simp only [Cert.RowOps.dotGeneral_entry dot_S1x128_S128x64_S1x64_1_0_0_1_n_n rfl rfl d0_l0 d0_l1 d0_r0 d0_r1,
    xR_eq h.h0, KR_eq h.h2, aR_eq h.h3, dot_coe]
  rfl

/-- The augmented weights, left of the seam. -/
theorem v3_left {c : Dev nD} (h : RealArgs m c) (f : Fin 128) (j : Fin 64) (j' : Fin 65) (hj : j'.val = j.val) :
    (V m c main_v3 : FVec Ideal S128x65 .f32) (ix2 f j') = ((Kr m c f j : ℝ) : EReal) := by
  rw [V_v3, Cert.HostOps.concat_cols_left _ _ concatenates_S128x64_S128x1_S128x65_d1 f j j' hj]
  exact KR_eq h.h2 f j

/-- The augmented weights' last column: the folded attention vector. -/
theorem v3_last {c : Dev nD} (h : RealArgs m c) (f : Fin 128) :
    (V m c main_v3 : FVec Ideal S128x65 .f32) (ix2 f (64 : Fin 65)) = ((wn (Kr m c) (nr m c) f : ℝ) : EReal) := by
  rw [V_v3, Cert.HostOps.concat_cols_right _ _ concatenates_S128x64_S128x1_S128x65_d1 f (0 : Fin 1) (64 : Fin 65) rfl,
    Cert.RowOps.dotGeneral_entry dot_S128x64_S64x1_S128x1_1_0_0_1_n_n rfl rfl d2_l0 d2_l1 d2_r0 d2_r1]
  simp only [KR_eq h.h2, aR_eq h.h4]
  exact dot_coe _ _

/-! ## The blocks of a grid point -/

/-- The first window's block index at point `t` is `t` along the rows and `0` along the columns. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

variable (m)

theorem iblk0_entry (c : Dev nD) (t : Fin cfg0.N) (k : Fin 10000) (f : Fin 128) (r : Fin 500000)
    (hr : r.val = 10000 * t.val + k.val) :
    (iblk m c 0 t : Vec Ideal S10000x128 .f32) (ix2 k f) = m ((c : Thread nD τ).loc main_arg1) (ix2 r f) := by
  have hi := idx0 t
  unfold iblk
  rw [View.read_apply]
  show V m c main_arg1 _ = m ((c : Thread nD τ).loc main_arg1) _
  rw [V_main_arg1]
  congr 1
  funext a
  apply Fin.ext
  match a with
  | ⟨0, _⟩ => show win0_0.index t 0 * 10000 + 1 * k.val = r.val; rw [hi.1, hr]; omega
  | ⟨1, _⟩ => show win0_0.index t 1 * 128 + 1 * f.val = f.val; rw [hi.2]; omega

theorem iblk1_entry (c : Dev nD) (t : Fin cfg0.N) (f : Fin 128) (j : Fin 65) :
    (iblk m c 1 t : Vec Ideal S128x65 .f32) (ix2 f j) = (V m c main_v3 : FVec Ideal S128x65 .f32) (ix2 f j) := by
  have hi := idx1 t
  unfold iblk
  rw [View.read_apply]
  show V m c main_v3 _ = V m c main_v3 _
  congr 1
  funext a
  apply Fin.ext
  match a with
  | ⟨0, _⟩ => show win0_1.index t 0 * 128 + 1 * f.val = f.val; rw [hi.1]; omega
  | ⟨1, _⟩ => show win0_1.index t 1 * 65 + 1 * j.val = j.val; rw [hi.2]; omega

theorem iblk2_entry (c : Dev nD) (t : Fin cfg0.N) (u v : Fin 1) :
    (iblk m c 2 t : Vec Ideal S1x1 .f32) (ix2 u v) = (V m c main_v1 : FVec Ideal S1x1 .f32) (ix2 u v) := by
  have hi := idx2 t
  unfold iblk
  rw [View.read_apply]
  show V m c main_v1 _ = V m c main_v1 _
  congr 1
  funext a
  apply Fin.ext
  match a with
  | ⟨0, _⟩ => show win0_2.index t 0 * 1 + 1 * u.val = u.val; rw [hi.1]; omega
  | ⟨1, _⟩ => show win0_2.index t 1 * 1 + 1 * v.val = v.val; rw [hi.2]; omega

variable {m}

/-- At grid point `t` the three windows' blocks hold the real data of the rows from `10000 t` on. -/
theorem blockData {c : Dev nD} (h : RealArgs m c) (t : Fin cfg0.N) :
    BlockData (xr m c) (Xr m c) (Kr m c) (ar m c) (nr m c) (10000 * t.val)
      (iblk m c 0 t : Vec Ideal S10000x128 .f32) (iblk m c 1 t : Vec Ideal S128x65 .f32) (iblk m c 2 t : Vec Ideal S1x1 .f32) where
  rows k f := by
    have hN : t.val < 50 := lt_of_lt_of_eq t.isLt (show cfg0.N = 50 from N_0)
    have hk := k.isLt
    rw [iblk0_entry m c t k f ⟨10000 * t.val + k.val, by omega⟩ rfl]
    exact XR_eq h.h1 _ _ rfl f
  wts f j j' hj := by rw [iblk1_entry]; exact v3_left h f j j' hj
  wlast f := by rw [iblk1_entry]; exact v3_last h f
  own := by rw [iblk2_entry]; exact v1_entry h

end Cert.KernelIdeal.Arrays

end
-- ==== Proof.KState.lean ====
/-
  What the kernel keeps between grid points, on real data: after point `n` of the grid — core `n / 25`, its block
  `n % 25` — the three scratch buffers hold a streaming-softmax state of the rows `250000 (n / 25) ≤ q < 10000 (n + 1)`,
  by induction on the point: a core's first point starts from `-∞, 0, 0`, every other point carries the state on.
-/
import proofs.«125645_j56796647522361_2_alg».proof.Proof.Pieces
import proofs.«125645_j56796647522361_2_alg».proof.Proof.Arrays

noncomputable section

namespace Cert.KernelIdeal.KState

open Cert.KernelIdeal Cert.KernelIdeal.Gen Cert.KernelIdeal.Tile Cert.KernelIdeal.Arrays Cert.KernelIdeal.Pieces
open Cert.GatModel Cert.GatSpec Cert.GatInputs
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## What a core's first point stores before reading it back -/

theorem init_shift (u v : Fin 1) : k0_pay7 (F := Ideal) (ix2 u v) = ⊥ := by
  unfold k0_pay7
  rw [shapeCast_self]
  exact Cert.ColReduce.ofBits_neg_inf_f32

theorem init_sum (u v : Fin 1) : k0_pay8 (F := Ideal) (ix2 u v) = 0 := by
  unfold k0_pay8
  rw [shapeCast_self]
  exact Ideal.ofBits_zero_f32

theorem init_wsum (u : Fin 1) (j : Fin 64) : k0_pay9 (F := Ideal) (ix2 u j) = 0 := by
  unfold k0_pay9
  rw [shapeCast_self]
  exact Ideal.ofBits_zero_f32

/-! ## The three cases of a point, as the body's arithmetic of the point's blocks -/

theorem caseA (c : Dev nD) (t : Fin cfg0.N) (h0 : t.val % 25 = 0) (h1 : ¬t.val % 25 = 24) :
    (outsAt0 m c t.val t.isLt).2.2.2.1 = k0_pay12 (F := Ideal) (iblk m c 0 t) (iblk m c 1 t) (iblk m c 2 t) (k0_pay7 (F := Ideal))
    ∧ (outsAt0 m c t.val t.isLt).2.2.2.2.1 = k0_pay15 (F := Ideal) (iblk m c 0 t) (iblk m c 1 t) (iblk m c 2 t) (k0_pay7 (F := Ideal)) (k0_pay8 (F := Ideal))
    ∧ (outsAt0 m c t.val t.isLt).2.2.2.2.2 = k0_pay16 (F := Ideal) (iblk m c 0 t) (iblk m c 1 t) (iblk m c 2 t) (k0_pay7 (F := Ideal)) (k0_pay9 (F := Ideal)) := by
  rw [outsAt0_A m c t h0 h1]
  exact ⟨scratch_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    scratch_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    scratch_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)⟩

theorem caseB (c : Dev nD) (t : Fin cfg0.N) (h0 : ¬t.val % 25 = 0) (h1 : ¬t.val % 25 = 24) :
    (outsAt0 m c t.val t.isLt).2.2.2.1 = k0_pay12 (F := Ideal) (iblk m c 0 t) (iblk m c 1 t) (iblk m c 2 t) (outsAt0 m c (t.val - 1) (Nat.lt_of_le_of_lt (Nat.sub_le _ _) t.isLt)).2.2.2.1
    ∧ (outsAt0 m c t.val t.isLt).2.2.2.2.1 = k0_pay15 (F := Ideal) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2 = k0_pay16 (F := Ideal) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_B m c t h0 h1]
  exact ⟨scratch_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    scratch_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    scratch_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

theorem caseC (c : Dev nD) (t : Fin cfg0.N) (h0 : ¬t.val % 25 = 0) (h1 : t.val % 25 = 24) :
    ((outsAt0 m c t.val t.isLt).2.2.2.1 = k0_pay12 (F := Ideal) (iblk m c 0 t) (iblk m c 1 t) (iblk m c 2 t) (outsAt0 m c (t.val - 1) (Nat.lt_of_le_of_lt (Nat.sub_le _ _) t.isLt)).2.2.2.1
    ∧ (outsAt0 m c t.val t.isLt).2.2.2.2.1 = k0_pay15 (F := Ideal) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2 = k0_pay16 (F := Ideal) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2)
    ∧ ((outsAt0 m c t.val t.isLt).1 = shapeCast S1x1x1 (k0_pay12 (F := Ideal) (iblk m c 0 t) (iblk m c 1 t) (iblk m c 2 t) (outsAt0 m c (t.val - 1) (Nat.lt_of_le_of_lt (Nat.sub_le _ _) t.isLt)).2.2.2.1) shapeCasts_S1x1_S1x1x1
    ∧ (outsAt0 m c t.val t.isLt).2.1 = shapeCast S1x1x1 (k0_pay15 (F := Ideal) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1) shapeCasts_S1x1_S1x1x1
    ∧ (outsAt0 m c t.val t.isLt).2.2.1 = shapeCast S1x1x64 (k0_pay16 (F := Ideal) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) shapeCasts_S1x64_S1x1x64) := by
  rw [outsAt0_C m c t h0 h1]
  exact ⟨⟨scratch_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    scratch_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    scratch_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩,
    out_C_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    out_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

variable {m}

/-- After point `n` the scratch buffers hold a state of the rows of its core seen so far. -/
theorem state_after {c : Dev nD} (h : RealArgs m c) : ∀ (n : ℕ) (hn : n < cfg0.N),
    StateAt (xr m c) (Xr m c) (Kr m c) (ar m c) (nr m c) (250000 * (n / 25)) (10000 * (n + 1))
      (outsAt0 m c n hn).2.2.2.1 (outsAt0 m c n hn).2.2.2.2.1 (outsAt0 m c n hn).2.2.2.2.2
  | n, hn => by
    have hN : n < 50 := lt_of_lt_of_eq hn (show cfg0.N = 50 from N_0)
    have ea : n % 25 = 0 → 250000 * (n / 25) = 10000 * n := fun _ => by omega
    have eb : ¬n % 25 = 0 → 250000 * ((n - 1) / 25) = 250000 * (n / 25) := fun _ => by omega
    have ec : ¬n % 25 = 0 → 10000 * (n - 1 + 1) = 10000 * n := fun _ => by omega
    have ed : 250000 * (n / 25) ≤ 10000 * n := by omega
    have ee : 10000 * (n + 1) = 10000 * n + 10000 := by ring
    have hb := blockData h ⟨n, hn⟩
    by_cases h0 : n % 25 = 0
    · have h1 : ¬n % 25 = 24 := by omega
      obtain ⟨e0, e1, e2⟩ := caseA m c ⟨n, hn⟩ h0 h1
      have hs := first_state hb (k0_pay7 (F := Ideal)) (k0_pay8 (F := Ideal)) (k0_pay9 (F := Ideal)) (init_shift 0 0) (init_sum 0 0) (init_wsum 0)
      rw [ea h0, ee]
      show StateAt _ _ _ _ _ _ _ (outsAt0 m c (⟨n, hn⟩ : Fin cfg0.N).val (⟨n, hn⟩ : Fin cfg0.N).isLt).2.2.2.1
        (outsAt0 m c (⟨n, hn⟩ : Fin cfg0.N).val (⟨n, hn⟩ : Fin cfg0.N).isLt).2.2.2.2.1
        (outsAt0 m c (⟨n, hn⟩ : Fin cfg0.N).val (⟨n, hn⟩ : Fin cfg0.N).isLt).2.2.2.2.2
      rw [e0, e1, e2]
      exact hs
    · have hpos : 0 < n := Nat.pos_of_ne_zero (fun e => h0 (by rw [e]))
      have hn1 : n - 1 < cfg0.N := lt_of_le_of_lt (Nat.sub_le _ _) hn
      have ih := state_after h (n - 1) hn1
      rw [eb h0, ec h0] at ih
      have hs := step_state hb (250000 * (n / 25)) ed _ _ _ ih
      rw [ee]
      show StateAt _ _ _ _ _ _ _ (outsAt0 m c (⟨n, hn⟩ : Fin cfg0.N).val (⟨n, hn⟩ : Fin cfg0.N).isLt).2.2.2.1
        (outsAt0 m c (⟨n, hn⟩ : Fin cfg0.N).val (⟨n, hn⟩ : Fin cfg0.N).isLt).2.2.2.2.1
        (outsAt0 m c (⟨n, hn⟩ : Fin cfg0.N).val (⟨n, hn⟩ : Fin cfg0.N).isLt).2.2.2.2.2
      by_cases h1 : n % 25 = 24
      · obtain ⟨⟨e0, e1, e2⟩, -⟩ := caseC m c ⟨n, hn⟩ h0 h1
        rw [e0, e1, e2]
        exact hs
      · obtain ⟨e0, e1, e2⟩ := caseB m c ⟨n, hn⟩ h0 h1
        rw [e0, e1, e2]
        exact hs
  termination_by n => n
  decreasing_by omega

end Cert.KernelIdeal.KState

end
-- ==== Proof.KOut.lean ====
/-
  What a core's last grid point puts in the three output blocks: the streaming-softmax state of the core's whole
  stretch of rows, copied from the scratch buffers.
-/
import proofs.«125645_j56796647522361_2_alg».proof.Proof.KState

set_option maxRecDepth 16384

noncomputable section

namespace Cert.KernelIdeal.KOut

open Cert.KernelIdeal Cert.KernelIdeal.Gen Cert.KernelIdeal.Tile Cert.KernelIdeal.Arrays Cert.KernelIdeal.KState
open Cert.GatModel Cert.GatSpec Cert.GatInputs
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- At a core's last point the three output blocks hold the state of the core's whole stretch. -/
theorem out_state {c : Dev nD} (h : RealArgs m c) (n : ℕ) (hn : n < cfg0.N) (h24 : n % 25 = 24) (a b : ℕ)
    (ha : 250000 * (n / 25) = a) (hb : 10000 * (n + 1) = b) :
    ∃ μ : ℝ, (outsAt0 m c n hn).1 (ix3 (0 : Fin 1) (0 : Fin 1) (0 : Fin 1)) = (μ : EReal)
      ∧ (outsAt0 m c n hn).2.1 (ix3 (0 : Fin 1) (0 : Fin 1) (0 : Fin 1)) = ((wsum (score (xr m c) (Xr m c) (Kr m c) (ar m c) (nr m c)) (fun _ => 1) μ a b : ℝ) : EReal)
      ∧ ∀ j : Fin 64, (outsAt0 m c n hn).2.2.1 (ix3 (0 : Fin 1) (0 : Fin 1) j) = ((wsum (score (xr m c) (Xr m c) (Kr m c) (ar m c) (nr m c)) (fun q => feat (Xr m c) (Kr m c) q j) μ a b : ℝ) : EReal) := by
  subst ha hb
  have h0 : ¬n % 25 = 0 := by omega
  obtain ⟨⟨e0, e1, e2⟩, o3, o4, o5⟩ := caseC m c ⟨n, hn⟩ h0 h24
  obtain ⟨μ, hm, hl, hw⟩ := state_after h n hn
  refine ⟨μ, ?_, ?_, fun j => ?_⟩
  · show (outsAt0 m c (⟨n, hn⟩ : Fin cfg0.N).val (⟨n, hn⟩ : Fin cfg0.N).isLt).1 _ = _
    rw [o3, shapeCast_ab_1ab_apply, ← e0]
    exact hm
  · show (outsAt0 m c (⟨n, hn⟩ : Fin cfg0.N).val (⟨n, hn⟩ : Fin cfg0.N).isLt).2.1 _ = _
    rw [o4, shapeCast_ab_1ab_apply, ← e1]
    exact hl
  · show (outsAt0 m c (⟨n, hn⟩ : Fin cfg0.N).val (⟨n, hn⟩ : Fin cfg0.N).isLt).2.2.1 _ = _
    rw [o5, shapeCast_ab_1ab_apply, ← e2]
    exact hw j

end Cert.KernelIdeal.KOut

end
-- ==== Proof.KArr.lean ====
/-
  The three result arrays after the run.  Each has two rows, one per core; the pipeline writes row `p` back once, at
  core `p`'s last grid point, from that point's output block.  So after the run row 0 is what point 24 left in the
  block and row 1 what point 49 left.
-/
import proofs.«125645_j56796647522361_2_alg».proof.Proof.Gen.KernelIdeal.Frame
import Idealize.ShloMosaic.Lib.Pipeline.Value
import Idealize.ShloMosaic.Lib.ValueIdx

set_option maxRecDepth 16384

noncomputable section

namespace Cert.KernelIdeal.KArr

open Cert.KernelIdeal Cert.KernelIdeal.Gen
open Idealize.ShloMosaic Idealize.ShloMosaic.TcCoe Idealize.SL.Sem Idealize.ShloMosaic.ValueIdx
open Idealize.ShloMosaic.Pipeline (Dat)

theorem t24_lt : 24 < cfg0.N := by rw [show cfg0.N = 50 from N_0]; decide
theorem t49_lt : 49 < cfg0.N := by rw [show cfg0.N = 50 from N_0]; decide
/-- The two cores' last grid points. -/
abbrev T24 : Fin cfg0.N := ⟨24, t24_lt⟩
abbrev T49 : Fin cfg0.N := ⟨49, t49_lt⟩

/-- A two-row array from its rows, the rows single entries. -/
def G1 (u0 u1 : Vec Ideal S1x1x1 .f32) : FVec Ideal S2x1x1 .f32 := fun i =>
  if (i 0).val = 0 then u0 (ix3 (0 : Fin 1) (0 : Fin 1) (0 : Fin 1)) else u1 (ix3 (0 : Fin 1) (0 : Fin 1) (0 : Fin 1))

/-- A two-row array from its rows, the rows of 64 entries. -/
def G64 (u0 u1 : Vec Ideal S1x1x64 .f32) : FVec Ideal S2x1x64 .f32 := fun i =>
  if (i 0).val = 0 then u0 (ix3 (0 : Fin 1) (0 : Fin 1) (⟨(i 2).val, (i 2).isLt⟩ : Fin 64))
  else u1 (ix3 (0 : Fin 1) (0 : Fin 1) (⟨(i 2).val, (i 2).isLt⟩ : Fin 64))

theorem G1_row0 (u0 u1 : Vec Ideal S1x1x1 .f32) :
    G1 u0 u1 (ix3 (0 : Fin 2) (0 : Fin 1) (0 : Fin 1)) = u0 (ix3 (0 : Fin 1) (0 : Fin 1) (0 : Fin 1)) := if_pos rfl
theorem G1_row1 (u0 u1 : Vec Ideal S1x1x1 .f32) :
    G1 u0 u1 (ix3 (1 : Fin 2) (0 : Fin 1) (0 : Fin 1)) = u1 (ix3 (0 : Fin 1) (0 : Fin 1) (0 : Fin 1)) := if_neg (by decide)
theorem G64_row0 (u0 u1 : Vec Ideal S1x1x64 .f32) (j : Fin 64) :
    G64 u0 u1 (ix3 (0 : Fin 2) (0 : Fin 1) j) = u0 (ix3 (0 : Fin 1) (0 : Fin 1) j) := if_pos rfl
theorem G64_row1 (u0 u1 : Vec Ideal S1x1x64 .f32) (j : Fin 64) :
    G64 u0 u1 (ix3 (1 : Fin 2) (0 : Fin 1) j) = u1 (ix3 (0 : Fin 1) (0 : Fin 1) j) :=
  if_neg (show ¬((1 : Fin 2).val = 0) from by decide)

/-! ## A core's last block, read through its window, is its row of the two-row array -/

theorem blk3_24 (u0 u1 : Vec Ideal S1x1x1 .f32) :
    (cfg0.win 3).cut (grid0.coords T24) u0 = ((cfg0.win 3).blk T24).view.read (Elt Ideal) (G1 u0 u1) := by
  funext y
  rw [View.read_apply]
  have hy0 : (y 0).val < 1 := (y 0).isLt
  have hy1 : (y 1).val < 1 := (y 1).isLt
  have hy2 : (y 2).val < 1 := (y 2).isLt
  show u0 ((cfg0.win 3).xinj (grid0.coords T24) y) = G1 u0 u1 (((cfg0.win 3).blk T24).view.emb y)
  have e1 : ((cfg0.win 3).xinj (grid0.coords T24) y : S1x1x1.Idx)
      = ix3 (0 : Fin 1) (0 : Fin 1) (0 : Fin 1) :=
    funext fun a => Fin.ext (by
      match a with
      | ⟨0, _⟩ => show (y 0).val = 0; omega
      | ⟨1, _⟩ => show (y 1).val = 0; omega
      | ⟨2, _⟩ => show (y 2).val = 0; omega)
  have e2 : (((cfg0.win 3).blk T24).view.emb y : S2x1x1.Idx)
      = ix3 (0 : Fin 2) (0 : Fin 1) (0 : Fin 1) :=
    funext fun a => Fin.ext (by
      match a with
      | ⟨0, _⟩ => show win0_3.index T24 0 * 1 + 1 * (y 0).val = 0; rw [show win0_3.index T24 0 = 0 from by decide +kernel]; omega
      | ⟨1, _⟩ => show win0_3.index T24 1 * 1 + 1 * (y 1).val = 0; rw [show win0_3.index T24 1 = 0 from by decide +kernel]; omega
      | ⟨2, _⟩ => show win0_3.index T24 2 * 1 + 1 * (y 2).val = 0; rw [show win0_3.index T24 2 = 0 from by decide +kernel]; omega)
  rw [e1, e2]
  exact (G1_row0 u0 u1).symm

theorem blk3_49 (u0 u1 : Vec Ideal S1x1x1 .f32) :
    (cfg0.win 3).cut (grid0.coords T49) u1 = ((cfg0.win 3).blk T49).view.read (Elt Ideal) (G1 u0 u1) := by
  funext y
  rw [View.read_apply]
  have hy0 : (y 0).val < 1 := (y 0).isLt
  have hy1 : (y 1).val < 1 := (y 1).isLt
  have hy2 : (y 2).val < 1 := (y 2).isLt
  show u1 ((cfg0.win 3).xinj (grid0.coords T49) y) = G1 u0 u1 (((cfg0.win 3).blk T49).view.emb y)
  have e1 : ((cfg0.win 3).xinj (grid0.coords T49) y : S1x1x1.Idx)
      = ix3 (0 : Fin 1) (0 : Fin 1) (0 : Fin 1) :=
    funext fun a => Fin.ext (by
      match a with
      | ⟨0, _⟩ => show (y 0).val = 0; omega
      | ⟨1, _⟩ => show (y 1).val = 0; omega
      | ⟨2, _⟩ => show (y 2).val = 0; omega)
  have e2 : (((cfg0.win 3).blk T49).view.emb y : S2x1x1.Idx)
      = ix3 (1 : Fin 2) (0 : Fin 1) (0 : Fin 1) :=
    funext fun a => Fin.ext (by
      match a with
      | ⟨0, _⟩ => show win0_3.index T49 0 * 1 + 1 * (y 0).val = 1; rw [show win0_3.index T49 0 = 1 from by decide +kernel]; omega
      | ⟨1, _⟩ => show win0_3.index T49 1 * 1 + 1 * (y 1).val = 0; rw [show win0_3.index T49 1 = 0 from by decide +kernel]; omega
      | ⟨2, _⟩ => show win0_3.index T49 2 * 1 + 1 * (y 2).val = 0; rw [show win0_3.index T49 2 = 0 from by decide +kernel]; omega)
  rw [e1, e2]
  exact (G1_row1 u0 u1).symm

theorem blk4_24 (u0 u1 : Vec Ideal S1x1x1 .f32) :
    (cfg0.win 4).cut (grid0.coords T24) u0 = ((cfg0.win 4).blk T24).view.read (Elt Ideal) (G1 u0 u1) := by
  funext y
  rw [View.read_apply]
  have hy0 : (y 0).val < 1 := (y 0).isLt
  have hy1 : (y 1).val < 1 := (y 1).isLt
  have hy2 : (y 2).val < 1 := (y 2).isLt
  show u0 ((cfg0.win 4).xinj (grid0.coords T24) y) = G1 u0 u1 (((cfg0.win 4).blk T24).view.emb y)
  have e1 : ((cfg0.win 4).xinj (grid0.coords T24) y : S1x1x1.Idx)
      = ix3 (0 : Fin 1) (0 : Fin 1) (0 : Fin 1) :=
    funext fun a => Fin.ext (by
      match a with
      | ⟨0, _⟩ => show (y 0).val = 0; omega
      | ⟨1, _⟩ => show (y 1).val = 0; omega
      | ⟨2, _⟩ => show (y 2).val = 0; omega)
  have e2 : (((cfg0.win 4).blk T24).view.emb y : S2x1x1.Idx)
      = ix3 (0 : Fin 2) (0 : Fin 1) (0 : Fin 1) :=
    funext fun a => Fin.ext (by
      match a with
      | ⟨0, _⟩ => show win0_4.index T24 0 * 1 + 1 * (y 0).val = 0; rw [show win0_4.index T24 0 = 0 from by decide +kernel]; omega
      | ⟨1, _⟩ => show win0_4.index T24 1 * 1 + 1 * (y 1).val = 0; rw [show win0_4.index T24 1 = 0 from by decide +kernel]; omega
      | ⟨2, _⟩ => show win0_4.index T24 2 * 1 + 1 * (y 2).val = 0; rw [show win0_4.index T24 2 = 0 from by decide +kernel]; omega)
  rw [e1, e2]
  exact (G1_row0 u0 u1).symm

theorem blk4_49 (u0 u1 : Vec Ideal S1x1x1 .f32) :
    (cfg0.win 4).cut (grid0.coords T49) u1 = ((cfg0.win 4).blk T49).view.read (Elt Ideal) (G1 u0 u1) := by
  funext y
  rw [View.read_apply]
  have hy0 : (y 0).val < 1 := (y 0).isLt
  have hy1 : (y 1).val < 1 := (y 1).isLt
  have hy2 : (y 2).val < 1 := (y 2).isLt
  show u1 ((cfg0.win 4).xinj (grid0.coords T49) y) = G1 u0 u1 (((cfg0.win 4).blk T49).view.emb y)
  have e1 : ((cfg0.win 4).xinj (grid0.coords T49) y : S1x1x1.Idx)
      = ix3 (0 : Fin 1) (0 : Fin 1) (0 : Fin 1) :=
    funext fun a => Fin.ext (by
      match a with
      | ⟨0, _⟩ => show (y 0).val = 0; omega
      | ⟨1, _⟩ => show (y 1).val = 0; omega
      | ⟨2, _⟩ => show (y 2).val = 0; omega)
  have e2 : (((cfg0.win 4).blk T49).view.emb y : S2x1x1.Idx)
      = ix3 (1 : Fin 2) (0 : Fin 1) (0 : Fin 1) :=
    funext fun a => Fin.ext (by
      match a with
      | ⟨0, _⟩ => show win0_4.index T49 0 * 1 + 1 * (y 0).val = 1; rw [show win0_4.index T49 0 = 1 from by decide +kernel]; omega
      | ⟨1, _⟩ => show win0_4.index T49 1 * 1 + 1 * (y 1).val = 0; rw [show win0_4.index T49 1 = 0 from by decide +kernel]; omega
      | ⟨2, _⟩ => show win0_4.index T49 2 * 1 + 1 * (y 2).val = 0; rw [show win0_4.index T49 2 = 0 from by decide +kernel]; omega)
  rw [e1, e2]
  exact (G1_row1 u0 u1).symm

theorem blk5_24 (u0 u1 : Vec Ideal S1x1x64 .f32) :
    (cfg0.win 5).cut (grid0.coords T24) u0 = ((cfg0.win 5).blk T24).view.read (Elt Ideal) (G64 u0 u1) := by
  funext y
  rw [View.read_apply]
  have hy0 : (y 0).val < 1 := (y 0).isLt
  have hy1 : (y 1).val < 1 := (y 1).isLt
  have hy2 : (y 2).val < 64 := (y 2).isLt
  show u0 ((cfg0.win 5).xinj (grid0.coords T24) y) = G64 u0 u1 (((cfg0.win 5).blk T24).view.emb y)
  have e1 : ((cfg0.win 5).xinj (grid0.coords T24) y : S1x1x64.Idx)
      = ix3 (0 : Fin 1) (0 : Fin 1) (⟨(y 2).val, hy2⟩ : Fin 64) :=
    funext fun a => Fin.ext (by
      match a with
      | ⟨0, _⟩ => show (y 0).val = 0; omega
      | ⟨1, _⟩ => show (y 1).val = 0; omega
      | ⟨2, _⟩ => rfl)
  have e2 : (((cfg0.win 5).blk T24).view.emb y : S2x1x64.Idx)
      = ix3 (0 : Fin 2) (0 : Fin 1) (⟨(y 2).val, hy2⟩ : Fin 64) :=
    funext fun a => Fin.ext (by
      match a with
      | ⟨0, _⟩ => show win0_5.index T24 0 * 1 + 1 * (y 0).val = 0; rw [show win0_5.index T24 0 = 0 from by decide +kernel]; omega
      | ⟨1, _⟩ => show win0_5.index T24 1 * 1 + 1 * (y 1).val = 0; rw [show win0_5.index T24 1 = 0 from by decide +kernel]; omega
      | ⟨2, _⟩ => show win0_5.index T24 2 * 64 + 1 * (y 2).val = (y 2).val; rw [show win0_5.index T24 2 = 0 from by decide +kernel]; omega)
  rw [e1, e2]
  exact (G64_row0 u0 u1 _).symm

theorem blk5_49 (u0 u1 : Vec Ideal S1x1x64 .f32) :
    (cfg0.win 5).cut (grid0.coords T49) u1 = ((cfg0.win 5).blk T49).view.read (Elt Ideal) (G64 u0 u1) := by
  funext y
  rw [View.read_apply]
  have hy0 : (y 0).val < 1 := (y 0).isLt
  have hy1 : (y 1).val < 1 := (y 1).isLt
  have hy2 : (y 2).val < 64 := (y 2).isLt
  show u1 ((cfg0.win 5).xinj (grid0.coords T49) y) = G64 u0 u1 (((cfg0.win 5).blk T49).view.emb y)
  have e1 : ((cfg0.win 5).xinj (grid0.coords T49) y : S1x1x64.Idx)
      = ix3 (0 : Fin 1) (0 : Fin 1) (⟨(y 2).val, hy2⟩ : Fin 64) :=
    funext fun a => Fin.ext (by
      match a with
      | ⟨0, _⟩ => show (y 0).val = 0; omega
      | ⟨1, _⟩ => show (y 1).val = 0; omega
      | ⟨2, _⟩ => rfl)
  have e2 : (((cfg0.win 5).blk T49).view.emb y : S2x1x64.Idx)
      = ix3 (1 : Fin 2) (0 : Fin 1) (⟨(y 2).val, hy2⟩ : Fin 64) :=
    funext fun a => Fin.ext (by
      match a with
      | ⟨0, _⟩ => show win0_5.index T49 0 * 1 + 1 * (y 0).val = 1; rw [show win0_5.index T49 0 = 1 from by decide +kernel]; omega
      | ⟨1, _⟩ => show win0_5.index T49 1 * 1 + 1 * (y 1).val = 0; rw [show win0_5.index T49 1 = 0 from by decide +kernel]; omega
      | ⟨2, _⟩ => show win0_5.index T49 2 * 64 + 1 * (y 2).val = (y 2).val; rw [show win0_5.index T49 2 = 0 from by decide +kernel]; omega)
  rw [e1, e2]
  exact (G64_row1 u0 u1 _).symm

variable (m : (ℓ : Loc nD τ sig) → Buf (Elt Ideal) ℓ)

/-! ## The arrays after the run -/

/-- After the run the array of window 3 holds the two cores' last blocks. -/
theorem final3 (c : Dev nD) : (dats m 0 c).arrAt 3 cfg0.N
    = G1 (outsAt0 m c T24.val T24.isLt).1 (outsAt0 m c T49.val T49.isLt).1 :=
  (dats m 0 c).arrAt_eq_of_cover 3 (G1 (outsAt0 m c T24.val T24.isLt).1 (outsAt0 m c T49.val T49.isLt).1)
    (fun t hf => by
      have ht := (flush0_3 t).mp hf
      have hN : t.val < 50 := lt_of_lt_of_eq t.isLt (show cfg0.N = 50 from N_0)
      rcases (by omega : t.val = 24 ∨ t.val = 49) with h | h
      · obtain rfl : t = T24 := Fin.ext h
        show (cfg0.win 3).cut (grid0.coords T24) ((dats m 0 c).after 3 T24) = _
        rw [after0_3]
        exact blk3_24 _ _
      · obtain rfl : t = T49 := Fin.ext h
        show (cfg0.win 3).cut (grid0.coords T49) ((dats m 0 c).after 3 T49) = _
        rw [after0_3]
        exact blk3_49 _ _)
    (fun i => by
      have hi0 : (i 0 : Nat) < 2 := (i 0).isLt
      have hi1 : (i 1 : Nat) < 1 := (i 1).isLt
      have hi2 : (i 2 : Nat) < 1 := (i 2).isLt
      by_cases h : (i 0 : Nat) = 0
      · refine ⟨T24, (flush0_3 _).mpr rfl, ?_⟩
        show i ∈ ((View.whole main_v4_0).slice (win0_3.rect T24)).set
        rw [View.set_slice_whole, Rect.mem_set_unit]
        intro a
        match a with
        | ⟨0, _⟩ => show win0_3.index T24 0 * win0_3.size 0 ≤ (i 0 : Nat) ∧ (i 0 : Nat) < win0_3.index T24 0 * win0_3.size 0 + win0_3.xsize (grid0.coords T24) 0
                    rw [show win0_3.index T24 0 * win0_3.size 0 = 0 from by decide +kernel, show win0_3.xsize (grid0.coords T24) 0 = 1 from by decide +kernel]; omega
        | ⟨1, _⟩ => show win0_3.index T24 1 * win0_3.size 1 ≤ (i 1 : Nat) ∧ (i 1 : Nat) < win0_3.index T24 1 * win0_3.size 1 + win0_3.xsize (grid0.coords T24) 1
                    rw [show win0_3.index T24 1 * win0_3.size 1 = 0 from by decide +kernel, show win0_3.xsize (grid0.coords T24) 1 = 1 from by decide +kernel]; omega
        | ⟨2, _⟩ => show win0_3.index T24 2 * win0_3.size 2 ≤ (i 2 : Nat) ∧ (i 2 : Nat) < win0_3.index T24 2 * win0_3.size 2 + win0_3.xsize (grid0.coords T24) 2
                    rw [show win0_3.index T24 2 * win0_3.size 2 = 0 from by decide +kernel, show win0_3.xsize (grid0.coords T24) 2 = 1 from by decide +kernel]; omega
      · refine ⟨T49, (flush0_3 _).mpr rfl, ?_⟩
        show i ∈ ((View.whole main_v4_0).slice (win0_3.rect T49)).set
        rw [View.set_slice_whole, Rect.mem_set_unit]
        intro a
        match a with
        | ⟨0, _⟩ => show win0_3.index T49 0 * win0_3.size 0 ≤ (i 0 : Nat) ∧ (i 0 : Nat) < win0_3.index T49 0 * win0_3.size 0 + win0_3.xsize (grid0.coords T49) 0
                    rw [show win0_3.index T49 0 * win0_3.size 0 = 1 from by decide +kernel, show win0_3.xsize (grid0.coords T49) 0 = 1 from by decide +kernel]; omega
        | ⟨1, _⟩ => show win0_3.index T49 1 * win0_3.size 1 ≤ (i 1 : Nat) ∧ (i 1 : Nat) < win0_3.index T49 1 * win0_3.size 1 + win0_3.xsize (grid0.coords T49) 1
                    rw [show win0_3.index T49 1 * win0_3.size 1 = 0 from by decide +kernel, show win0_3.xsize (grid0.coords T49) 1 = 1 from by decide +kernel]; omega
        | ⟨2, _⟩ => show win0_3.index T49 2 * win0_3.size 2 ≤ (i 2 : Nat) ∧ (i 2 : Nat) < win0_3.index T49 2 * win0_3.size 2 + win0_3.xsize (grid0.coords T49) 2
                    rw [show win0_3.index T49 2 * win0_3.size 2 = 0 from by decide +kernel, show win0_3.xsize (grid0.coords T49) 2 = 1 from by decide +kernel]; omega)

/-- After the run the array of window 4 holds the two cores' last blocks. -/
theorem final4 (c : Dev nD) : (dats m 0 c).arrAt 4 cfg0.N
    = G1 (outsAt0 m c T24.val T24.isLt).2.1 (outsAt0 m c T49.val T49.isLt).2.1 :=
  (dats m 0 c).arrAt_eq_of_cover 4 (G1 (outsAt0 m c T24.val T24.isLt).2.1 (outsAt0 m c T49.val T49.isLt).2.1)
    (fun t hf => by
      have ht := (flush0_4 t).mp hf
      have hN : t.val < 50 := lt_of_lt_of_eq t.isLt (show cfg0.N = 50 from N_0)
      rcases (by omega : t.val = 24 ∨ t.val = 49) with h | h
      · obtain rfl : t = T24 := Fin.ext h
        show (cfg0.win 4).cut (grid0.coords T24) ((dats m 0 c).after 4 T24) = _
        rw [after0_4]
        exact blk4_24 _ _
      · obtain rfl : t = T49 := Fin.ext h
        show (cfg0.win 4).cut (grid0.coords T49) ((dats m 0 c).after 4 T49) = _
        rw [after0_4]
        exact blk4_49 _ _)
    (fun i => by
      have hi0 : (i 0 : Nat) < 2 := (i 0).isLt
      have hi1 : (i 1 : Nat) < 1 := (i 1).isLt
      have hi2 : (i 2 : Nat) < 1 := (i 2).isLt
      by_cases h : (i 0 : Nat) = 0
      · refine ⟨T24, (flush0_4 _).mpr rfl, ?_⟩
        show i ∈ ((View.whole main_v4_1).slice (win0_4.rect T24)).set
        rw [View.set_slice_whole, Rect.mem_set_unit]
        intro a
        match a with
        | ⟨0, _⟩ => show win0_4.index T24 0 * win0_4.size 0 ≤ (i 0 : Nat) ∧ (i 0 : Nat) < win0_4.index T24 0 * win0_4.size 0 + win0_4.xsize (grid0.coords T24) 0
                    rw [show win0_4.index T24 0 * win0_4.size 0 = 0 from by decide +kernel, show win0_4.xsize (grid0.coords T24) 0 = 1 from by decide +kernel]; omega
        | ⟨1, _⟩ => show win0_4.index T24 1 * win0_4.size 1 ≤ (i 1 : Nat) ∧ (i 1 : Nat) < win0_4.index T24 1 * win0_4.size 1 + win0_4.xsize (grid0.coords T24) 1
                    rw [show win0_4.index T24 1 * win0_4.size 1 = 0 from by decide +kernel, show win0_4.xsize (grid0.coords T24) 1 = 1 from by decide +kernel]; omega
        | ⟨2, _⟩ => show win0_4.index T24 2 * win0_4.size 2 ≤ (i 2 : Nat) ∧ (i 2 : Nat) < win0_4.index T24 2 * win0_4.size 2 + win0_4.xsize (grid0.coords T24) 2
                    rw [show win0_4.index T24 2 * win0_4.size 2 = 0 from by decide +kernel, show win0_4.xsize (grid0.coords T24) 2 = 1 from by decide +kernel]; omega
      · refine ⟨T49, (flush0_4 _).mpr rfl, ?_⟩
        show i ∈ ((View.whole main_v4_1).slice (win0_4.rect T49)).set
        rw [View.set_slice_whole, Rect.mem_set_unit]
        intro a
        match a with
        | ⟨0, _⟩ => show win0_4.index T49 0 * win0_4.size 0 ≤ (i 0 : Nat) ∧ (i 0 : Nat) < win0_4.index T49 0 * win0_4.size 0 + win0_4.xsize (grid0.coords T49) 0
                    rw [show win0_4.index T49 0 * win0_4.size 0 = 1 from by decide +kernel, show win0_4.xsize (grid0.coords T49) 0 = 1 from by decide +kernel]; omega
        | ⟨1, _⟩ => show win0_4.index T49 1 * win0_4.size 1 ≤ (i 1 : Nat) ∧ (i 1 : Nat) < win0_4.index T49 1 * win0_4.size 1 + win0_4.xsize (grid0.coords T49) 1
                    rw [show win0_4.index T49 1 * win0_4.size 1 = 0 from by decide +kernel, show win0_4.xsize (grid0.coords T49) 1 = 1 from by decide +kernel]; omega
        | ⟨2, _⟩ => show win0_4.index T49 2 * win0_4.size 2 ≤ (i 2 : Nat) ∧ (i 2 : Nat) < win0_4.index T49 2 * win0_4.size 2 + win0_4.xsize (grid0.coords T49) 2
                    rw [show win0_4.index T49 2 * win0_4.size 2 = 0 from by decide +kernel, show win0_4.xsize (grid0.coords T49) 2 = 1 from by decide +kernel]; omega)

/-- After the run the array of window 5 holds the two cores' last blocks. -/
theorem final5 (c : Dev nD) : (dats m 0 c).arrAt 5 cfg0.N
    = G64 (outsAt0 m c T24.val T24.isLt).2.2.1 (outsAt0 m c T49.val T49.isLt).2.2.1 :=
  (dats m 0 c).arrAt_eq_of_cover 5 (G64 (outsAt0 m c T24.val T24.isLt).2.2.1 (outsAt0 m c T49.val T49.isLt).2.2.1)
    (fun t hf => by
      have ht := (flush0_5 t).mp hf
      have hN : t.val < 50 := lt_of_lt_of_eq t.isLt (show cfg0.N = 50 from N_0)
      rcases (by omega : t.val = 24 ∨ t.val = 49) with h | h
      · obtain rfl : t = T24 := Fin.ext h
        show (cfg0.win 5).cut (grid0.coords T24) ((dats m 0 c).after 5 T24) = _
        rw [after0_5]
        exact blk5_24 _ _
      · obtain rfl : t = T49 := Fin.ext h
        show (cfg0.win 5).cut (grid0.coords T49) ((dats m 0 c).after 5 T49) = _
        rw [after0_5]
        exact blk5_49 _ _)
    (fun i => by
      have hi0 : (i 0 : Nat) < 2 := (i 0).isLt
      have hi1 : (i 1 : Nat) < 1 := (i 1).isLt
      have hi2 : (i 2 : Nat) < 64 := (i 2).isLt
      by_cases h : (i 0 : Nat) = 0
      · refine ⟨T24, (flush0_5 _).mpr rfl, ?_⟩
        show i ∈ ((View.whole main_v4_2).slice (win0_5.rect T24)).set
        rw [View.set_slice_whole, Rect.mem_set_unit]
        intro a
        match a with
        | ⟨0, _⟩ => show win0_5.index T24 0 * win0_5.size 0 ≤ (i 0 : Nat) ∧ (i 0 : Nat) < win0_5.index T24 0 * win0_5.size 0 + win0_5.xsize (grid0.coords T24) 0
                    rw [show win0_5.index T24 0 * win0_5.size 0 = 0 from by decide +kernel, show win0_5.xsize (grid0.coords T24) 0 = 1 from by decide +kernel]; omega
        | ⟨1, _⟩ => show win0_5.index T24 1 * win0_5.size 1 ≤ (i 1 : Nat) ∧ (i 1 : Nat) < win0_5.index T24 1 * win0_5.size 1 + win0_5.xsize (grid0.coords T24) 1
                    rw [show win0_5.index T24 1 * win0_5.size 1 = 0 from by decide +kernel, show win0_5.xsize (grid0.coords T24) 1 = 1 from by decide +kernel]; omega
        | ⟨2, _⟩ => show win0_5.index T24 2 * win0_5.size 2 ≤ (i 2 : Nat) ∧ (i 2 : Nat) < win0_5.index T24 2 * win0_5.size 2 + win0_5.xsize (grid0.coords T24) 2
                    rw [show win0_5.index T24 2 * win0_5.size 2 = 0 from by decide +kernel, show win0_5.xsize (grid0.coords T24) 2 = 64 from by decide +kernel]; omega
      · refine ⟨T49, (flush0_5 _).mpr rfl, ?_⟩
        show i ∈ ((View.whole main_v4_2).slice (win0_5.rect T49)).set
        rw [View.set_slice_whole, Rect.mem_set_unit]
        intro a
        match a with
        | ⟨0, _⟩ => show win0_5.index T49 0 * win0_5.size 0 ≤ (i 0 : Nat) ∧ (i 0 : Nat) < win0_5.index T49 0 * win0_5.size 0 + win0_5.xsize (grid0.coords T49) 0
                    rw [show win0_5.index T49 0 * win0_5.size 0 = 1 from by decide +kernel, show win0_5.xsize (grid0.coords T49) 0 = 1 from by decide +kernel]; omega
        | ⟨1, _⟩ => show win0_5.index T49 1 * win0_5.size 1 ≤ (i 1 : Nat) ∧ (i 1 : Nat) < win0_5.index T49 1 * win0_5.size 1 + win0_5.xsize (grid0.coords T49) 1
                    rw [show win0_5.index T49 1 * win0_5.size 1 = 0 from by decide +kernel, show win0_5.xsize (grid0.coords T49) 1 = 1 from by decide +kernel]; omega
        | ⟨2, _⟩ => show win0_5.index T49 2 * win0_5.size 2 ≤ (i 2 : Nat) ∧ (i 2 : Nat) < win0_5.index T49 2 * win0_5.size 2 + win0_5.xsize (grid0.coords T49) 2
                    rw [show win0_5.index T49 2 * win0_5.size 2 = 0 from by decide +kernel, show win0_5.xsize (grid0.coords T49) 2 = 64 from by decide +kernel]; omega)

end Cert.KernelIdeal.KArr

end
-- ==== Proof.Merge.lean ====
/-
  The host lines after the region: the two cores' streaming-softmax states merged and normalised.

  Each core `c` leaves a shift `mp c`, a sum `lp c` and weighted sums `ap c`.  With `M = max (mp 0) (mp 1)` the host
  rescales each core's sums by `exp (mp c - M)`, adds them, divides the weighted sums by the sum, and blends the
  quotient with the node's own projected features:  0.75 · (acc / l) + 0.25 · xt.
-/
import proofs.«125645_j56796647522361_2_alg».proof.Proof.Gen.KernelIdeal
import proofs.«125645_j56796647522361_2_alg».proof.Proof.Model
import proofs.«125645_j56796647522361_2_alg».proof.Proof.LibHostOps
import Idealize.ShloMosaic.Lib.ValueLayout

noncomputable section

namespace Cert.KernelIdeal.Merge

open Cert.KernelIdeal Cert.KernelIdeal.Gen Cert.GatModel Cert.GatSpec
open Idealize.ShloMosaic Idealize.ShloMosaic.ValueIdx
open scoped BigOperators

/-- The larger of two reals, read on the extended reals. -/
theorem coe_max'' (a b : ℝ) : ((max a b : ℝ) : EReal) = max (a : EReal) (b : EReal) :=
  EReal.coe_strictMono.monotone.map_max

/-- Core `c`'s `[1, 1]` part of a `[2, 1, 1]` result array. -/
def part1 (off : Fin 3 → Nat) (h : S2x1x1.Slices off S1x1x1) (p : FVec Ideal S2x1x1 .f32) : FVec Ideal S1x1 .f32 :=
  shapeCast S1x1 (extractStridedSlice S1x1x1 off p h) shapeCasts_S1x1x1_S1x1

/-- Core `c`'s `[1, 64]` part of the `[2, 1, 64]` result array. -/
def part64 (off : Fin 3 → Nat) (h : S2x1x64.Slices off S1x1x64) (p : FVec Ideal S2x1x64 .f32) : FVec Ideal S1x64 .f32 :=
  shapeCast S1x64 (extractStridedSlice S1x1x64 off p h) shapeCasts_S1x1x64_S1x64

/-- The host lines after the region as one function of the three result arrays and the node's projected features. -/
def merge (mp lp : FVec Ideal S2x1x1 .f32) (ap : FVec Ideal S2x1x64 .f32) (v0 : FVec Ideal S1x64 .f32) :
    FVec Ideal S1x64 .f32 :=
  let m0 := part1 ![0, 0, 0] slices_S2x1x1_S1x1x1_0_0_0 mp
  let m1 := part1 ![1, 0, 0] slices_S2x1x1_S1x1x1_1_0_0 mp
  let l0 := part1 ![0, 0, 0] slices_S2x1x1_S1x1x1_0_0_0 lp
  let l1 := part1 ![1, 0, 0] slices_S2x1x1_S1x1x1_1_0_0 lp
  let a0 := part64 ![0, 0, 0] slices_S2x1x64_S1x1x64_0_0_0 ap
  let a1 := part64 ![1, 0, 0] slices_S2x1x64_S1x1x64_1_0_0 ap
  let M := maximumf m0 m1
  let e0 := Host.exp (F := Ideal) (subf m0 M)
  let e1 := Host.exp (F := Ideal) (subf m1 M)
  let l := addf (mulf e0 l0) (mulf e1 l1)
  let acc := addf (mulf (broadcastInDim S1x64 ![0, 1] bcast_S1x1_S1x64_0_1 e0) a0)
    (mulf (broadcastInDim S1x64 ![0, 1] bcast_S1x1_S1x64_0_1 e1) a1)
  let q := Host.divf (F := Ideal) acc (broadcastInDim S1x64 ![0, 1] bcast_S1x1_S1x64_0_1 l)
  addf (mulf (broadcastInDim S1x64 ![] bcast_S_S1x64 (constant (F := Ideal) S_ .f32 0x3F400000#32)) q)
    (mulf (broadcastInDim S1x64 ![] bcast_S_S1x64 (constant (F := Ideal) S_ .f32 0x3E800000#32)) v0)

theorem part1_entry (off : Fin 3 → Nat) (h : S2x1x1.Slices off S1x1x1) (p : FVec Ideal S2x1x1 .f32)
    (c : Fin 2) (h0 : off 0 = c.val) (h1 : off 1 = 0) (h2 : off 2 = 0) (u v : Fin 1) :
    part1 off h p (ix2 u v) = p (ix3 c (0 : Fin 1) (0 : Fin 1)) := by
  unfold part1
  rw [shapeCast_1ab_ab_apply _ shapeCasts_S1x1x1_S1x1 u v]
  refine extractStridedSlice_apply _ p h _ _ fun ax => ?_
  have hu : u.val = 0 := by omega
  have hv : v.val = 0 := by omega
  match ax with
  | ⟨0, _⟩ => show c.val = off 0 + 0; omega
  | ⟨1, _⟩ => show 0 = off 1 + u.val; omega
  | ⟨2, _⟩ => show 0 = off 2 + v.val; omega

theorem part64_entry (off : Fin 3 → Nat) (h : S2x1x64.Slices off S1x1x64) (p : FVec Ideal S2x1x64 .f32)
    (c : Fin 2) (h0 : off 0 = c.val) (h1 : off 1 = 0) (h2 : off 2 = 0) (u : Fin 1) (j : Fin 64) :
    part64 off h p (ix2 u j) = p (ix3 c (0 : Fin 1) j) := by
  unfold part64
  rw [shapeCast_1ab_ab_apply _ shapeCasts_S1x1x64_S1x64 u j]
  refine extractStridedSlice_apply _ p h _ _ fun ax => ?_
  have hu : u.val = 0 := by omega
  match ax with
  | ⟨0, _⟩ => show c.val = off 0 + 0; omega
  | ⟨1, _⟩ => show 0 = off 1 + u.val; omega
  | ⟨2, _⟩ => show j.val = off 2 + j.val; omega

/-- The merged result at a column, in terms of the two cores' entries. -/
theorem merge_entry (mp lp : FVec Ideal S2x1x1 .f32) (ap : FVec Ideal S2x1x64 .f32) (v0 : FVec Ideal S1x64 .f32)
    (j : Fin 64) :
    merge mp lp ap v0 (ix2 (0 : Fin 1) j)
      = Ideal.ofBits .f32 0x3F400000#32
          * Ideal.div
              (Ideal.exp (mp (ix3 (0 : Fin 2) (0 : Fin 1) (0 : Fin 1)) - max (mp (ix3 (0 : Fin 2) (0 : Fin 1) (0 : Fin 1))) (mp (ix3 (1 : Fin 2) (0 : Fin 1) (0 : Fin 1))))
                  * ap (ix3 (0 : Fin 2) (0 : Fin 1) j)
                + Ideal.exp (mp (ix3 (1 : Fin 2) (0 : Fin 1) (0 : Fin 1)) - max (mp (ix3 (0 : Fin 2) (0 : Fin 1) (0 : Fin 1))) (mp (ix3 (1 : Fin 2) (0 : Fin 1) (0 : Fin 1))))
                  * ap (ix3 (1 : Fin 2) (0 : Fin 1) j))
              (Ideal.exp (mp (ix3 (0 : Fin 2) (0 : Fin 1) (0 : Fin 1)) - max (mp (ix3 (0 : Fin 2) (0 : Fin 1) (0 : Fin 1))) (mp (ix3 (1 : Fin 2) (0 : Fin 1) (0 : Fin 1))))
                  * lp (ix3 (0 : Fin 2) (0 : Fin 1) (0 : Fin 1))
                + Ideal.exp (mp (ix3 (1 : Fin 2) (0 : Fin 1) (0 : Fin 1)) - max (mp (ix3 (0 : Fin 2) (0 : Fin 1) (0 : Fin 1))) (mp (ix3 (1 : Fin 2) (0 : Fin 1) (0 : Fin 1))))
                  * lp (ix3 (1 : Fin 2) (0 : Fin 1) (0 : Fin 1)))
        + Ideal.ofBits .f32 0x3E800000#32 * v0 (ix2 (0 : Fin 1) j) := by
  unfold merge
  simp only [addf_apply, mulf_apply, Cert.HostOps.bcast_scalar, Cert.HostOps.bcast_col_cols]
  show Ideal.ofBits .f32 0x3F400000#32 * Ideal.div _ _ + _ = _
  simp only [addf_apply, mulf_apply, Cert.HostOps.bcast_col_cols]
  show _ * Ideal.div
      (Ideal.exp (part1 ![0, 0, 0] slices_S2x1x1_S1x1x1_0_0_0 mp (ix2 0 0) - max (part1 ![0, 0, 0] slices_S2x1x1_S1x1x1_0_0_0 mp (ix2 0 0)) (part1 ![1, 0, 0] slices_S2x1x1_S1x1x1_1_0_0 mp (ix2 0 0)))
          * part64 ![0, 0, 0] slices_S2x1x64_S1x1x64_0_0_0 ap (ix2 0 j)
        + Ideal.exp (part1 ![1, 0, 0] slices_S2x1x1_S1x1x1_1_0_0 mp (ix2 0 0) - max (part1 ![0, 0, 0] slices_S2x1x1_S1x1x1_0_0_0 mp (ix2 0 0)) (part1 ![1, 0, 0] slices_S2x1x1_S1x1x1_1_0_0 mp (ix2 0 0)))
          * part64 ![1, 0, 0] slices_S2x1x64_S1x1x64_1_0_0 ap (ix2 0 j))
      (Ideal.exp (part1 ![0, 0, 0] slices_S2x1x1_S1x1x1_0_0_0 mp (ix2 0 0) - max (part1 ![0, 0, 0] slices_S2x1x1_S1x1x1_0_0_0 mp (ix2 0 0)) (part1 ![1, 0, 0] slices_S2x1x1_S1x1x1_1_0_0 mp (ix2 0 0)))
          * part1 ![0, 0, 0] slices_S2x1x1_S1x1x1_0_0_0 lp (ix2 0 0)
        + Ideal.exp (part1 ![1, 0, 0] slices_S2x1x1_S1x1x1_1_0_0 mp (ix2 0 0) - max (part1 ![0, 0, 0] slices_S2x1x1_S1x1x1_0_0_0 mp (ix2 0 0)) (part1 ![1, 0, 0] slices_S2x1x1_S1x1x1_1_0_0 mp (ix2 0 0)))
          * part1 ![1, 0, 0] slices_S2x1x1_S1x1x1_1_0_0 lp (ix2 0 0)) + _ = _
  rw [part1_entry ![0, 0, 0] slices_S2x1x1_S1x1x1_0_0_0 mp (0 : Fin 2) rfl rfl rfl,
    part1_entry ![1, 0, 0] slices_S2x1x1_S1x1x1_1_0_0 mp (1 : Fin 2) rfl rfl rfl,
    part1_entry ![0, 0, 0] slices_S2x1x1_S1x1x1_0_0_0 lp (0 : Fin 2) rfl rfl rfl,
    part1_entry ![1, 0, 0] slices_S2x1x1_S1x1x1_1_0_0 lp (1 : Fin 2) rfl rfl rfl,
    part64_entry ![0, 0, 0] slices_S2x1x64_S1x1x64_0_0_0 ap (0 : Fin 2) rfl rfl rfl,
    part64_entry ![1, 0, 0] slices_S2x1x64_S1x1x64_1_0_0 ap (1 : Fin 2) rfl rfl rfl]
  rfl

/-- On real data: two adjacent stretches' states merge into the weighted mean over both. -/
theorem merge_real (s : ℕ → ℝ) (w : Fin 64 → ℕ → ℝ) (xtv : Fin 64 → ℝ) (a b c : ℕ) (hab : a < b) (hbc : b < c)
    (mp lp : FVec Ideal S2x1x1 .f32) (ap : FVec Ideal S2x1x64 .f32) (v0 : FVec Ideal S1x64 .f32) (μ0 μ1 : ℝ)
    (hm0 : mp (ix3 (0 : Fin 2) (0 : Fin 1) (0 : Fin 1)) = (μ0 : EReal))
    (hm1 : mp (ix3 (1 : Fin 2) (0 : Fin 1) (0 : Fin 1)) = (μ1 : EReal))
    (hl0 : lp (ix3 (0 : Fin 2) (0 : Fin 1) (0 : Fin 1)) = ((wsum s (fun _ => 1) μ0 a b : ℝ) : EReal))
    (hl1 : lp (ix3 (1 : Fin 2) (0 : Fin 1) (0 : Fin 1)) = ((wsum s (fun _ => 1) μ1 b c : ℝ) : EReal))
    (ha0 : ∀ j, ap (ix3 (0 : Fin 2) (0 : Fin 1) j) = ((wsum s (w j) μ0 a b : ℝ) : EReal))
    (ha1 : ∀ j, ap (ix3 (1 : Fin 2) (0 : Fin 1) j) = ((wsum s (w j) μ1 b c : ℝ) : EReal))
    (hv0 : ∀ j, v0 (ix2 (0 : Fin 1) j) = ((xtv j : ℝ) : EReal)) (j : Fin 64) :
    merge mp lp ap v0 (ix2 (0 : Fin 1) j)
      = Ideal.ofBits .f32 0x3F400000#32
          * ((wsum s (w j) (max μ0 μ1) a c / wsum s (fun _ => 1) (max μ0 μ1) a c : ℝ) : EReal)
        + Ideal.ofBits .f32 0x3E800000#32 * ((xtv j : ℝ) : EReal) := by
  rw [merge_entry, hm0, hm1, hl0, hl1, ha0, ha1, hv0, ← coe_max'']
  simp only [exp_sub_coe, ← EReal.coe_mul, ← EReal.coe_add]
  rw [wsum_merge s (w j) μ0 μ1 (max μ0 μ1) a b c hab.le hbc.le,
    wsum_merge s (fun _ => 1) μ0 μ1 (max μ0 μ1) a b c hab.le hbc.le,
    div_coe_coe _ _ (wsum_one_pos s (max μ0 μ1) a c (hab.trans hbc)).ne']

end Cert.KernelIdeal.Merge

end
-- ==== Proof.KTail.lean ====
/-
  The result buffer after the run, as the merge of the three arrays the region leaves: the host lines after the
  region read the region's three result arrays and the node's projected features (written before the region), and
  compute the merged, normalised and blended result from them.
-/
import proofs.«125645_j56796647522361_2_alg».proof.Proof.Gen.KernelIdeal.Frame
import proofs.«125645_j56796647522361_2_alg».proof.Proof.Merge
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.KTail

open Cert.KernelIdeal Cert.KernelIdeal.Gen Cert.KernelIdeal.Merge
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

set_option maxHeartbeats 3200000 in
theorem tail_eq (c : Dev nD) :
    Pipeline.afterTail₀ cfgs (dats m) 0 (V0 m) [hostOps1] c main_v36
      = merge ((dats m 0 c).arrAt 3 cfg0.N) ((dats m 0 c).arrAt 4 cfg0.N) ((dats m 0 c).arrAt 5 cfg0.N) (V m c main_v0) := by
  have e3 : Pipeline.withArrays (cfgs 0).spec c (V0 m c) (fun w => (dats m 0 c).arrAt w (cfgs 0).N) (Proc.tc.devRef main_v4_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.tc.devRef main_v4_1)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.tc.devRef main_v4_2)
      = (dats m 0 c).arrAt 5 cfg0.N := Pipeline.withArrays_arr spec0 launch0.win.arr_inj c _ _ 5
  have e0 : Pipeline.withArrays (cfgs 0).spec c (V0 m c) (fun w => (dats m 0 c).arrAt w (cfgs 0).N) (Proc.tc.devRef main_v0)
      = V m c main_v0 :=
    Pipeline.withArrays_of_ne _ c (V0 m c) _ main_v0 (by exact (by decide : ∀ w, Pipeline.arrRef spec0 w ≠ main_v0))
  unfold Pipeline.afterTail₀
  simp only [List.flatten_cons, List.flatten_nil, List.append_nil]
  after_results
  rw [e3, e4, e5, e0]
  rfl

end Cert.KernelIdeal.KTail

end
-- ==== Proof.KValue.lean ====
/-
  The kernel's result on real data: the host lines after the region merge the two cores' states, each the state of
  one half of the rows, into  0.75 · (∑ exp (score q - M) · feat q j / ∑ exp (score q - M)) + 0.25 · xt j  over all
  500000 rows, for a real `M`.
-/
import proofs.«125645_j56796647522361_2_alg».proof.Proof.KOut
import proofs.«125645_j56796647522361_2_alg».proof.Proof.KArr
import proofs.«125645_j56796647522361_2_alg».proof.Proof.KTail

set_option maxRecDepth 16384

noncomputable section

namespace Cert.KernelIdeal.KValue

open Cert.KernelIdeal Cert.KernelIdeal.Gen Cert.KernelIdeal.Tile Cert.KernelIdeal.Arrays Cert.KernelIdeal.KState
open Cert.GatModel Cert.GatSpec Cert.GatInputs Cert.KernelIdeal.KOut Cert.KernelIdeal.KArr Cert.KernelIdeal.KTail Cert.KernelIdeal.Merge
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The kernel's result, column by column. -/
theorem kernel_value {c : Dev nD} (h : RealArgs m c) :
    ∃ M : ℝ, ∀ j : Fin 64,
      (Pipeline.afterTail₀ cfgs (dats m) 0 (V0 m) [hostOps1] c main_v36 : FVec Ideal S1x64 .f32) (ix2 (0 : Fin 1) j)
        = Ideal.ofBits .f32 0x3F400000#32
            * ((wsum (score (xr m c) (Xr m c) (Kr m c) (ar m c) (nr m c)) (fun q => feat (Xr m c) (Kr m c) q j) M 0 500000 / wsum (score (xr m c) (Xr m c) (Kr m c) (ar m c) (nr m c)) (fun _ => 1) M 0 500000 : ℝ) : EReal)
          + Ideal.ofBits .f32 0x3E800000#32 * ((xt (xr m c) (Kr m c) j : ℝ) : EReal) := by
  obtain ⟨μ0, a0, b0, c0⟩ := out_state m h T24.val T24.isLt rfl 0 250000 rfl rfl
  obtain ⟨μ1, a1, b1, c1⟩ := out_state m h T49.val T49.isLt rfl 250000 500000 rfl rfl
  refine ⟨max μ0 μ1, fun j => ?_⟩
  rw [tail_eq]
  refine merge_real (score (xr m c) (Xr m c) (Kr m c) (ar m c) (nr m c)) (fun j q => feat (Xr m c) (Kr m c) q j) (xt (xr m c) (Kr m c)) 0 250000 500000
    (by norm_num) (by norm_num) _ _ _ _ μ0 μ1 ?_ ?_ ?_ ?_ ?_ ?_ ?_ j
  · rw [final3, G1_row0]; exact a0
  · rw [final3, G1_row1]; exact a1
  · rw [final4, G1_row0]; exact b0
  · rw [final4, G1_row1]; exact b1
  · intro j'; rw [final5, G64_row0]; exact c0 j'
  · intro j'; rw [final5, G64_row1]; exact c1 j'
  · intro j'; exact v0_entry h 0 j'

end Cert.KernelIdeal.KValue

end
-- ==== Proof.lean ====
/-
  A graph-attention layer for one node over 500000 neighbours: the neighbours' features are projected by a weight
  matrix, each neighbour is scored against the node, the scores are normalised by a softmax over all neighbours, and
  the result is 0.75 of the softmax-weighted mean of the projected features plus 0.25 of the node's own projection.

  The reference computes the softmax in one piece.  The kernel streams the neighbours in 50 blocks of 10000 rows over
  two cores, keeping per core a running shift, a running sum of exponentials and running weighted sums, rescaled
  whenever the shift grows (the first block of a core starting from the shift `-∞`), and merges the two cores' states on
  the host.  It also folds the neighbour attention vector into one more column of the weight matrix.

  On the extended reals, with every input finite, both are the same number: a softmax-weighted mean does not depend
  on the shift subtracted inside the exponentials (the common factor cancels), the streamed sums over adjacent
  stretches of rows add up to the sums over all rows, and the folded score is the unfolded one with two finite sums
  exchanged.  Finiteness is used throughout: every quantity is a real number, so the rescaling is multiplication by a
  positive real and the final division is by a positive real.
-/
import proofs.«125645_j56796647522361_2_alg».proof.Defs
import proofs.«125645_j56796647522361_2_alg».proof.Proof.Gen.Kernel
import proofs.«125645_j56796647522361_2_alg».proof.Proof.Gen.Kernel.Skeleton
import proofs.«125645_j56796647522361_2_alg».proof.Proof.Gen.Kernel.Launch
import proofs.«125645_j56796647522361_2_alg».proof.Proof.Gen.Kernel.Points
import proofs.«125645_j56796647522361_2_alg».proof.Proof.Gen.Kernel.Frame
import proofs.«125645_j56796647522361_2_alg».proof.Proof.Gen.KernelIdeal
import proofs.«125645_j56796647522361_2_alg».proof.Proof.Gen.KernelIdeal.Skeleton
import proofs.«125645_j56796647522361_2_alg».proof.Proof.Gen.KernelIdeal.Launch
import proofs.«125645_j56796647522361_2_alg».proof.Proof.Gen.KernelIdeal.Points
import proofs.«125645_j56796647522361_2_alg».proof.Proof.Gen.KernelIdeal.Frame
import proofs.«125645_j56796647522361_2_alg».proof.Proof.Gen.ReferenceIdeal
import proofs.«125645_j56796647522361_2_alg».proof.Proof.Gen.Pre_finite_inputs
import proofs.«125645_j56796647522361_2_alg».proof.Proof.Gen.ReferenceIdeal.Run
import proofs.«125645_j56796647522361_2_alg».proof.Proof.Gen.ReferenceIdeal.Read
import proofs.«125645_j56796647522361_2_alg».proof.Proof.Finite
import proofs.«125645_j56796647522361_2_alg».proof.Proof.RefValue
import proofs.«125645_j56796647522361_2_alg».proof.Proof.KValue
import Idealize.ShloMosaic.Adequacy
import Idealize.ShloMosaic.Init

noncomputable section

namespace Cert.Proof

open Idealize.ShloMosaic Idealize.ShloMosaic.TcCoe Idealize.SL.Sem Idealize.ShloMosaic.ValueIdx
open Cert.GatModel Cert.GatSpec Cert.GatInputs
open Cert.KernelIdeal.Arrays

/-- Under the precondition the five arguments are real data on every core. -/
theorem realArgs (m : (ℓ : Loc Cert.KernelIdeal.nD Cert.KernelIdeal.τ Cert.KernelIdeal.sig) → Buf (Elt Ideal) ℓ)
    (hpre : Cert.Pre_KernelIdeal m) (c : Dev Cert.KernelIdeal.nD) : RealArgs m c := by
  obtain ⟨h0, h1, h2, h3, h4⟩ := Cert.Finite.reals_of_pre _ _ _ _ _ (hpre c)
  exact ⟨h0, h1, h2, h3, h4⟩

/-- The kernel's result buffer is the reference's function of the same arguments: column by column both are
    0.75 · (softmax-weighted mean of the projected features) + 0.25 · (the node's projection). -/
theorem kernel_eq_reference (m : (ℓ : Loc Cert.KernelIdeal.nD Cert.KernelIdeal.τ Cert.KernelIdeal.sig) → Buf (Elt Ideal) ℓ)
    (c : Dev Cert.KernelIdeal.nD) (h : RealArgs m c) :
    (Pipeline.afterTail₀ Cert.KernelIdeal.cfgs (Cert.KernelIdeal.Gen.dats m) 0 (Cert.KernelIdeal.Gen.V0 m)
        [Cert.KernelIdeal.Gen.hostOps1] c Cert.KernelIdeal.main_v36 : FVec Ideal Cert.KernelIdeal.S1x64 .f32)
      = Cert.ReferenceIdeal.Read.val_main_v23 (F := Ideal) (A0 m c) (A1 m c) (A2 m c) (A3 m c) (A4 m c) := by
  funext i
  obtain ⟨u, j, rfl⟩ : ∃ (u : Fin 1) (j : Fin 64), i = ix2 u j := ⟨i 0, i 1, eq_ix2 i⟩
  obtain rfl : u = 0 := Subsingleton.elim _ _
  obtain ⟨M, hk⟩ := Cert.KernelIdeal.KValue.kernel_value m h
  obtain ⟨Mr, hr⟩ := Cert.ReferenceIdeal.RefValue.result (A0 m c) (A1 m c) (A2 m c) (A3 m c) (A4 m c) h.h0 h.h1 h.h2 h.h3 h.h4
  rw [hk j, hr j, mean_eq_softmax (score (xr m c) (Xr m c) (Kr m c) (ar m c) (nr m c))
    (fun q => feat (Xr m c) (Kr m c) q j) M Mr 500000 (by norm_num)]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the reference's function of the kernel's arguments. -/
theorem algebraic : Cert.algebraic_KernelIdeal_ReferenceIdeal := by
  intro m ρ m' ρ' hpre hagree
  refine ⟨fun c => Cert.ReferenceIdeal.Read.val_main_v23 (F := Ideal) (A0 m c) (A1 m c) (A2 m c) (A3 m c) (A4 m c), ?_, ?_⟩
  · refine (θ_run Cert.KernelIdeal.defs _ _).mono (fun _ h c => ⟨?_, ?_, ?_, ?_, ?_, ?_⟩) (Cert.KernelIdeal.Gen.run_main m ρ)
    · exact ((h c).2 Cert.KernelIdeal.main_v36 (Pipeline.mem_restRefs_of Cert.KernelIdeal.main_v36 (by decide) (by decide))).trans
        (kernel_eq_reference m c (realArgs m hpre c))
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).1 0).trans (((Cert.KernelIdeal.Gen.dats m 0 c).arrAt_in 0 rfl _).trans
        ((Cert.KernelIdeal.Gen.A_eq m c 0).trans (Cert.KernelIdeal.Gen.V_main_arg1 m c)))
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans
        (Cert.KernelIdeal.Gen.W_main_arg3 m (Cert.KernelIdeal.Gen.dats m) c)
    · exact ((h c).2 Cert.KernelIdeal.main_arg4 (Pipeline.mem_restRefs_of Cert.KernelIdeal.main_arg4 (by decide) (by decide))).trans
        (Cert.KernelIdeal.Gen.W_main_arg4 m (Cert.KernelIdeal.Gen.dats m) c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v23_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
